-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x1024 .f32) (main_arg1 : FVec F S8x2048 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S8x2048x1024 : Shape := ⟨3, ![8, 2048, 1024]⟩
abbrev S8x2048 : Shape := ⟨2, ![8, 2048]⟩
abbrev S8x2048x1 : Shape := ⟨3, ![8, 2048, 1]⟩
abbrev S1x1024x1024 : Shape := ⟨3, ![1, 1024, 1024]⟩
abbrev S1x256x1024 : Shape := ⟨3, ![1, 256, 1024]⟩
abbrev S1x1024x1 : Shape := ⟨3, ![1, 1024, 1]⟩
abbrev S1x256x1 : Shape := ⟨3, ![1, 256, 1]⟩
abbrev S1024x1 : Shape := ⟨2, ![1024, 1]⟩
abbrev S1024x1024 : Shape := ⟨2, ![1024, 1024]⟩
abbrev S256x1024 : Shape := ⟨2, ![256, 1024]⟩
abbrev S256x1 : Shape := ⟨2, ![256, 1]⟩
abbrev S1024x256 : Shape := ⟨2, ![1024, 256]⟩
abbrev S1024 : Shape := ⟨1, ![1024]⟩

abbrev nBuf : Space → Nat
  | .hbm => 4
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .f32⟩
  | .hbm, ⟨2, _⟩ => ⟨S8x2048x1, .f32⟩
  | .hbm, ⟨3, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x256x1, .f32⟩
  | .local _ .vmem, ⟨7, _⟩ => ⟨S1x256x1, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1, .f32⟩
  | .local _ .vmem, ⟨11, _⟩ => ⟨S1024x1, .f32⟩
  | .local _ .vmem, ⟨12, _⟩ => ⟨S1024x1024, .f32⟩
  | .local _ .vmem, ⟨13, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_23 : BitVec 32 := 0#32
  let v45 : BitVec 1 := Scalar.cmpi .ne v44 c0_i32_23
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x2048_S8x2048x1 : S8x2048.ShapeCasts S8x2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x1024 : S256x1.Broadcasts S256x1024
  transposes_S256x1024_p1_0_S1024x256 : S256x1024.Transposes [1, 0] S1024x256
  reduces_S1024x256_S1024 : S1024x256.Reduces [1] S1024
  shapeCasts_S1024_S1024x1 : S1024.ShapeCasts S1024x1
  broadcasts_S1024x1_S1024x256 : S1024x1.Broadcasts S1024x256
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2048x1024.size a
  hwx0_1 : ∀ i : grid0.Coords, EltTy.bits .f32 = 32 ∨ (Rect.block (s := S8x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x2048x1.size a
  hwx0_2 : ∀ i : grid0.Coords, EltTy.bits .f32 = 32 ∨ (Rect.block (s := S8x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S8x2048x1.size a
  hwx0_3 : ∀ i : grid0.Coords, EltTy.bits .f32 = 32 ∨ (Rect.block (s := S8x2048x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x2048x1024.size a
  hwx0_4 : ∀ i : grid0.Coords, EltTy.bits .f32 = 32 ∨ (Rect.block (s := S8x2048x1024) S1x1024x1024.size (cc0_transform_4 i) (hinb0_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S_ : Shape := ⟨0, ![]⟩
abbrev S8x2048x1 : Shape := ⟨3, ![8, 2048, 1]⟩
abbrev S8x2048x2048 : Shape := ⟨3, ![8, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x2048x1, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S8x2048x1_S8x2048x1024_0_1_2 : S8x2048x1.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelRuns.lean ====
/-
  The attention kernel's body, case by case: what the case distinction is and where it falls on the grid.

  The grid is 8 sequences × 2 query tiles × 8 key tiles, the key tile innermost, so a point `t` works on key tile
  `t mod 8` of query tile `(t / 8) mod 2` of sequence `t / 16`. The body has two conditionals on the key-tile coordinate:
  at the FIRST key tile (`t ≡ 0 mod 8`) it resets the running maximum, the running normaliser and the running weighted
  sum and stores the scaled masked query tile; at the LAST key tile (`t ≡ 7 mod 8`) it divides the weighted sum by the
  normaliser into the output block. So there are three cases — first, middle, last — and the output block is stored (and
  written back) at the last key tile only.
-/
import proofs.«108820_j20366734917932_2_alg».proof.Proof.Gen.Kernel.Launch
import proofs.«108820_j20366734917932_2_alg».proof.Proof.Gen.Kernel.Skeleton
import proofs.«108820_j20366734917932_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, over the grid -/

/-- "This is the first key tile": the body's first conditional, as a proposition of the grid coordinates. -/
abbrev condFirst (i : grid0.Coords) : Prop := (Scalar.cmpi .ne (Scalar.extui (Scalar.cmpi .eq (BitVec.ofNat 32 (i 2).val) 0#32)) 0#32) = 1#1
/-- It holds exactly at the points whose key-tile coordinate is 0. -/
theorem hcondFirst : ∀ t : Fin cfg0.N, condFirst (grid0.coords t) ↔ t.val % 8 = 0 :=
  (by decide +kernel : ∀ t : Fin grid0.N, condFirst (grid0.coords t) ↔ t.val % 8 = 0)

/-- "This is the last key tile": the body's second conditional. -/
abbrev condLast (i : grid0.Coords) : Prop := k0_cond2 i = 1#1
/-- It holds exactly at the points whose key-tile coordinate is 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last key tile the output block is neither stored into nor written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
/-- At the last key tile it is stored. -/
theorem live4 : ∀ t : Fin cfg0.N, condLast (grid0.coords t) → cfg0.idle 4 (grid0.coords t) = false := by decide +kernel

/-! ## The memrefs the body is called with -/

abbrev ms0 (t : Fin cfg0.N) : Memref sig .tc .vmem S1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)

/-- The four scratch operands: the running maximum, the running normaliser, the running weighted sum, and the scaled
    masked query tile. -/
abbrev scMax : Memref sig .tc .vmem S1024x1 .f32 := Memref.whole cc0_scratch0
abbrev scNorm : Memref sig .tc .vmem S1024x1 .f32 := Memref.whole cc0_scratch1
abbrev scAcc : Memref sig .tc .vmem S1024x1024 .f32 := Memref.whole cc0_scratch2
abbrev scQ : Memref sig .tc .vmem S1024x1024 .bf16 := Memref.whole cc0_scratch3

/-- One staging buffer of the output window, and the scratch operands, as views through which contents are stated. -/
abbrev VOut : View sig .tc .vmem S1x1024x1024 .f32 := (Memref.whole cc0_stg4_0 : Memref sig .tc .vmem S1x1024x1024 .f32).view
abbrev VMax : View sig .tc .vmem S1024x1 .f32 := scMax.view
abbrev VNorm : View sig .tc .vmem S1024x1 .f32 := scNorm.view
abbrev VAcc : View sig .tc .vmem S1024x1024 .f32 := scAcc.view
abbrev VQ : View sig .tc .vmem S1024x1024 .bf16 := scQ.view

/-- Before the first point the region holds the four scratch buffers at unknown contents, and the generator register. -/
theorem PhiA_eq (c : Dev nD) :
    (Pipeline.ΦA spec0 c : sProp 𝕄)
      = iprop(iprop((∃ d, owns (c : Thread nD τ) scMax fullShare d) ∗ (∃ d, owns (c : Thread nD τ) scNorm fullShare d) ∗ (∃ d, owns (c : Thread nD τ) scAcc fullShare d) ∗ (∃ d, owns (c : Thread nD τ) scQ fullShare d)) ∗ (∃ r, prngReg c r)) := by
  unfold Pipeline.ΦA; rw [scopedRest0_eq]; simp only [scMax, scNorm, scAcc, scQ, owns_whole]; try rfl

end Cert.Kernel.Body

end
-- ==== Proof.KernelRunA.lean ====
/-
  The body at a FIRST key tile (not the last): it resets the running maximum to -∞, the normaliser and the weighted sum to
  zero, stores the scaled masked query tile, and then makes the general step on the key tile. The output block is not
  touched. What each scratch buffer is left holding is found by running the body: the pieces its stores write.
-/
import proofs.«108820_j20366734917932_2_alg».proof.Proof.KernelRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a first key tile, on whole memrefs: the four input blocks at their contents, the output's buffer
    at contents handed back untouched, the four scratch buffers at anything; it leaves each scratch buffer with the
    pieces its stores wrote. -/
noncomputable def runFirst (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i)
    (x0 : Vec F S1x1024x1024 .f32) (x1 : Vec F S1x256x1024 .f32) (x2 : Vec F S1x1024x1 .f32) (x3 : Vec F S1x256x1 .f32) :
    Σ' (LS0 : List (View.Piece (Elt F) S1024x1 .f32)), Σ' (LS1 : List (View.Piece (Elt F) S1024x1 .f32)), Σ' (LS2 : List (View.Piece (Elt F) S1024x1024 .f32)), { LS3 : List (View.Piece (Elt F) S1024x1024 .bf16) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Body

end
-- ==== Proof.KernelRunB.lean ====
/-
  The body at a MIDDLE key tile: the general step only — the running maximum, normaliser and weighted sum are read at what
  the key tile before left and stored anew; the scaled masked query tile is read and left as it is; the output block is
  not touched.
-/
import proofs.«108820_j20366734917932_2_alg».proof.Proof.KernelRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a middle key tile. -/
noncomputable def runMiddle (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i)
    (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    Σ' (LS0 : List (View.Piece (Elt F) S1024x1 .f32)), Σ' (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Body

end
-- ==== Proof.KernelRunC.lean ====
/-
  The body at the LAST key tile: the general step, and then the weighted sum divided by the normaliser is stored, whole,
  into the output block.
-/
import proofs.«108820_j20366734917932_2_alg».proof.Proof.KernelRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last key tile. -/
noncomputable def runLast (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i)
    (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    Σ' (L4 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Body

end
-- ==== Proof.LibSharedFrame.lean ====
/-
  The frame run of a pipeline kernel whose windows may SHARE ARRAYS.

  `Pipeline.θ_run_frame_track` asks for the windows' arrays pairwise distinct (`LaunchFacts.win : WinFacts`), and uses
  the distinctness at one place only: to hand each window its array whole. A kernel that is given one array through
  several input windows has no such layout; what it has is a way of splitting the full share of each array among the
  windows that read it. This file states the frame run with that splitting as a hypothesis (`hsplit`) in place of
  the distinctness, the layout facts that remain (`WinFacts₀`) by name.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN with a TRACKING invariant for a pipeline whose windows may SHARE ARRAYS (no table prefetched):
    `θ_run_frame_track` with the layout facts by name — the staging cells pairwise distinct (`hinj`), the windows laid
    out as `WinFacts₀` says (the arrays unscoped, the staging buffers scoped and distinct: nothing about the arrays
    being distinct), no block empty, arrays and staging memrefs whole buffers — and, in place of "every window lends
    the full share of an array of its own", the hypothesis `hsplit`: on every core the buffers behind the arrays, each
    whole at the full share at its contents at the region's entry (`arrBufs`), yield the proof data's `arrays` at
    entry, each window at the share `q` names. The rest is `θ_run_frame_track`'s: the body obligation in its loose
    form, nothing owed, @main up to the region (`hmain`), the certificate's invariant entered from the class
    invariant `ΦA` before point 0 (`hin`) and returned to it after the last point (`hout`). Concludes `FramePost`:
    every window's array at `arrAt w N` (windows on one array end at the same contents, each its own `arrAt`), every
    bypassing unscoped buffer at its entry contents. -/
theorem θ_run_frame_track_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) ((cfg).toPCfg (Val := Val)).pre (cfg).spec c (V c))
    (hX := fun c => by
      iintro ⟨HU, -, -, -, Hp, -⟩; imodintro
      isplitl [Hp]; · iexists _; iexact Hp
      iexact HU)
    (hin := fun c => by
      exact (show _ ⊢ ΦA (cfg).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (QY := fun c s => ∀ b ∈ restRefsP sig ((cfg).toPCfg (Val := Val)).pre (cfg).spec, s.mem ((c.tc : Thread nD τ).loc b) = V c b)
    (hY := fun c s' => by
      iintro ⟨-, HU, HSI⟩
      unfold unscopedRestP
      imodintro
      iapply (pointsTo_read_all (restRefsP sig ((cfg).toPCfg (Val := Val)).pre (cfg).spec) (fun b => (c.tc : Thread nD τ).loc b) (V c) s')
      isplitl [HU] <;> iassumption)
    (hQ := fun s h c => ⟨(h c).1, rest_of_restP ((cfg).toPCfg (Val := Val)).pre (cfg).spec ((cfg).toPCfg_adm (Val := Val)).1 c (V c) s (fun k => k.elim0) (h c).2.1 (h c).2.2⟩)

end SharedFrame

end Pipeline

end Idealize.ShloMosaic

end
-- ==== Proof.KernelLaunch.lean ====
/-
  The launch of `Kernel`'s one region, whose windows share arrays: windows 0 and 1 read `main_arg0`, windows 2 and 3
  read `main_v0` (the reshape of `main_arg1` that @main computes before the region), window 4 writes `main_v1`.

  The full share of an array read through two windows is split in two halves, one per window; the output's array is
  held whole. With that splitting (`hsplit_of`) the frame run for shared arrays (`Pipeline.θ_run_frame_track_shared`)
  gives the run of @main for any proof data over the region-entry contents (`run_of`), from which the two argument
  arrays are read back unchanged (`frame_of`) and the result array at what the write-backs leave (`post_of`).
-/
import proofs.«108820_j20366734917932_2_alg».proof.Proof.Gen.Kernel.Launch
import proofs.«108820_j20366734917932_2_alg».proof.Proof.Gen.Kernel.Points
import proofs.«108820_j20366734917932_2_alg».proof.Proof.Gen.Kernel.Skeleton
import proofs.«108820_j20366734917932_2_alg».proof.Proof.LibSharedFrame

noncomputable section

namespace Cert.Kernel.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the reshape of `main_arg1` into `main_v0`. -/
abbrev V (c : Dev nD) (b : Ref sig .tc) : Buf (Elt F) ((c : Thread nD τ).loc b) :=
  StableHlo.after hostOps0 (fun b => m (c, b)) b

/-- The reshape allocates nothing. -/
theorem hostOps0_fresh : (hostOps0 : List (HloOp τ sig (Elt F))).Forall fun op => op.fresh = ∅ := by
  simp only [List.Forall]; repeat' constructor

/-- @main up to the region: the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes `main_v0` only: the region finds `main_arg0` as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- and `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-! ## The arrays split among the windows -/

/-- The buffers behind the windows' arrays: `main_arg0` (windows 0 and 1), `main_v0` (windows 2 and 3), `main_v1` (window 4). -/
theorem arrRefs0 : Finset.univ.image (Pipeline.arrRef spec0) = [main_arg0, main_v0, main_v1].toFinset := by decide

/-- `Pipeline.arrBufs` buffer by buffer. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_v0, main_v1] arrRefs0 (by decide) _

/-- THE SPLITTING: the three buffers behind the arrays, whole at the full share at the region-entry contents, are the
    proof data's `arrays` at entry when the two windows on `main_arg0` hold the two halves of its full share, the two
    on `main_v0` the two halves of its, and the output window `main_v1` whole (an output's share is the full one
    whatever `q` says). -/
theorem hsplit_of {c : Dev nD} (dat : Dat τ (Elt F) Unit ℕ (UR sig nD τ) ℕ cfg0 c)
    (hA : ∀ w, dat.A w = V m c (Pipeline.arrRef spec0 w))
    (hq0 : dat.q 0 = fullShare.left) (hq1 : dat.q 1 = fullShare.right)
    (hq2 : dat.q 2 = fullShare.left) (hq3 : dat.q 3 = fullShare.right) :
    (Pipeline.arrBufs spec0 c (V m c) : sProp 𝕄) ⊢ dat.arrays (dat.arrAt · 0) := by
  have hwin : ∀ (w : Fin 5) (q : PosShare TreeShare), dat.share w = q →
      ((((c : Thread nD τ).loc (Pipeline.arrRef spec0 w)) ↦{q} V m c (Pipeline.arrRef spec0 w) : sProp 𝕄))
        ⊢ ((cfg0.win w).arr.view.loc (c.tc : Thread nD τ) ↦[(cfg0.win w).arr.view.set]{dat.share w} dat.arrAt w 0) := by
    intro w q hq
    rw [hq, (arr_whole0 w).set_eq_univ, show dat.arrAt w 0 = dat.A w from rfl, hA w]
  have halves : ∀ b : Ref sig .tc, ((((c : Thread nD τ).loc b) ↦{fullShare} V m c b : sProp 𝕄))
      ⊢ iprop((((c : Thread nD τ).loc b) ↦{fullShare.left} V m c b) ∗ (((c : Thread nD τ).loc b) ↦{fullShare.right} V m c b)) :=
    fun b => (pointsTo_share (PosShare.mem_left_op_right fullShare)).1
  have e0 : dat.share 0 = fullShare.left := by unfold Dat.share; rw [if_neg (by decide)]; exact hq0
  have e1 : dat.share 1 = fullShare.right := by unfold Dat.share; rw [if_neg (by decide)]; exact hq1
  have e2 : dat.share 2 = fullShare.left := by unfold Dat.share; rw [if_neg (by decide)]; exact hq2
  have e3 : dat.share 3 = fullShare.right := by unfold Dat.share; rw [if_neg (by decide)]; exact hq3
  have e4 : dat.share 4 = fullShare := by unfold Dat.share; rw [if_pos (by decide)]
  rw [arrBufs0_eq]
  unfold Dat.arrays
  rw [bigSep_W0]
  refine (BIClass.sep_mono (halves main_arg0) (sep_mono_left (halves main_v0))).trans ?_
  iintro ⟨⟨H0, H1⟩, ⟨H2, H3⟩, H4⟩
  isplitl [H0]; · iapply (hwin 0 _ e0); iexact H0
  isplitl [H1]; · iapply (hwin 1 _ e1); iexact H1
  isplitl [H2]; · iapply (hwin 2 _ e2); iexact H2
  isplitl [H3]; · iapply (hwin 3 _ e3); iexact H3
  iapply (hwin 4 _ e4); iexact H4

/-! ## The run -/

/-- THE RUN of @main for any proof data over the region-entry contents (`hA`) that split the shared arrays' shares in
    halves (`hq0` … `hq3`), owe nothing, satisfy the body obligation, and whose invariant is entered from the class
    invariant before point 0 and returns to it after the last point. -/
theorem run_of (𝒱₀ : Variants) (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare.left) (hq3 : ∀ c, (dats 0 c).q 3 = fullShare.right)
    (howed : ∀ c t, (dats 0 c).owed t = 0)
    (hbody : ∀ c, Pipeline.BodyObligationLoose (dats 0 c) defs₀ 𝒱₀ () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (V m)) :=
  Pipeline.θ_run_frame_track_shared cfgs dats (0 : Fin 1) defs₀ 𝒱₀ cellOf_inj winFacts₀0 block_pos0 arr_whole0 stage_whole0 m ρ main
    hbody howed (V m) (hmain m 𝒱₀) (fun c => hsplit_of m (dats 0 c) (hA c) (hq0 c) (hq1 c) (hq2 c) (hq3 c)) hin hout

/-! ## The frame claim's post from the run's -/

/-- THE FRAME from the run: `main_arg0` is window 0's array, an input's, so it ends at its entry contents
    (`Dat.arrAt_in`), which are the launch contents; `main_arg1` is no window's array, so it ends as the region found
    it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-- The same keeping the result array: `main_v1` is window 4's array, and ends at what the write-backs of all the
    points leave in it. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v1) = (dats 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4,
      ((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

end Cert.Kernel.Launch

end
-- ==== Proof.KernelFrame.lean ====
/-
  The attention kernel's frame: what the scratch buffers and the output block hold after each grid point, the invariant
  that carries the scratch from point to point, the proof data of the pipeline, and the body's obligation at every point.

  After the point on key tile `j` of a query tile, the running-maximum scratch holds the greatest score of each query
  row over key tiles `0..j`, the normaliser scratch the sum of the exponentials of those scores less that maximum, the
  weighted-sum scratch the same exponentials times the key rows, and the fourth scratch the scaled masked query tile; the
  first key tile starts them afresh, so nothing is carried from one query tile to the next. The output block is stored at
  the last key tile only, and written back there.
-/
import proofs.«108820_j20366734917932_2_alg».proof.Proof.KernelRunC
import proofs.«108820_j20366734917932_2_alg».proof.Proof.KernelLaunch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Launch (V)

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The pieces the first-tile case writes into the max scratch tile it. -/
theorem coverFirstMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1.Idx) :
    ∃ pc ∈ (runFirst c i arg3 harg3 arg4 harg4 arg5 harg5 arg6 harg6 arg7 harg7 arg8 harg8 arg9 harg9 arg10 harg10 arg11 harg11 hc0 hc1 x0 x1 x2 x3).1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).1 S1024x1.size (by sl_kernel_rfl) y

/-- What the first-tile case leaves in the max scratch: its pieces read back. -/
def leftFirstMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1 .f32 :=
  VMax.read (Elt F) (VMax.writes (Elt F) VMax.junk (runFirst c i arg3 harg3 arg4 harg4 arg5 harg5 arg6 harg6 arg7 harg7 arg8 harg8 arg9 harg9 arg10 harg10 arg11 harg11 hc0 hc1 x0 x1 x2 x3).1)

/-- The pieces the first-tile case writes into the norm scratch tile it. -/
theorem coverFirstNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1.Idx) :
    ∃ pc ∈ (runFirst c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).2.1 S1024x1.size (by sl_kernel_rfl) y

/-- What the first-tile case leaves in the norm scratch: its pieces read back. -/
def leftFirstNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1 .f32 :=
  VNorm.read (Elt F) (VNorm.writes (Elt F) VNorm.junk (runFirst c i arg3 harg3 arg4 harg4 arg5 harg5 arg6 harg6 arg7 harg7 arg8 harg8 arg9 harg9 arg10 harg10 arg11 harg11 hc0 hc1 x0 x1 x2 x3).2.1)

/-- The pieces the first-tile case writes into the acc scratch tile it. -/
theorem coverFirstAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1024.Idx) :
    ∃ pc ∈ (runFirst c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).2.2.1 S1024x1024.size (by sl_kernel_rfl) y

/-- What the first-tile case leaves in the acc scratch: its pieces read back. -/
def leftFirstAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1024 .f32 :=
  VAcc.read (Elt F) (VAcc.writes (Elt F) VAcc.junk (runFirst c i arg3 harg3 arg4 harg4 arg5 harg5 arg6 harg6 arg7 harg7 arg8 harg8 arg9 harg9 arg10 harg10 arg11 harg11 hc0 hc1 x0 x1 x2 x3).2.2.1)

/-- The pieces the first-tile case writes into the q scratch tile it. -/
theorem coverFirstQ (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1024.Idx) :
    ∃ pc ∈ (runFirst c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).2.2.2.1 S1024x1024.size (by sl_kernel_rfl) y

/-- What the first-tile case leaves in the q scratch: its pieces read back. -/
def leftFirstQ (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1024 .bf16 :=
  VQ.read (Elt F) (VQ.writes (Elt F) VQ.junk (runFirst c i arg3 harg3 arg4 harg4 arg5 harg5 arg6 harg6 arg7 harg7 arg8 harg8 arg9 harg9 arg10 harg10 arg11 harg11 hc0 hc1 x0 x1 x2 x3).2.2.2.1)

/-- The pieces the middle-tile case writes into the max scratch tile it. -/
theorem coverMiddleMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runMiddle c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (runMiddle c i arg3 harg3 arg4 harg4 arg5 harg5 arg6 harg6 arg7 harg7 arg8 harg8 arg9 harg9 arg10 harg10 arg11 harg11 hc0 hc1 x0 x1 x2 x3 xs0 xs1 xs2 xs3).1 S1024x1.size (by sl_kernel_rfl) y

/-- What the middle-tile case leaves in the max scratch: its pieces read back. -/
def leftMiddleMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VMax.read (Elt F) (VMax.writes (Elt F) VMax.junk (runMiddle c i arg3 harg3 arg4 harg4 arg5 harg5 arg6 harg6 arg7 harg7 arg8 harg8 arg9 harg9 arg10 harg10 arg11 harg11 hc0 hc1 x0 x1 x2 x3 xs0 xs1 xs2 xs3).1)

/-- The pieces the middle-tile case writes into the norm scratch tile it. -/
theorem coverMiddleNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runMiddle c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (runMiddle c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What the middle-tile case leaves in the norm scratch: its pieces read back. -/
def leftMiddleNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VNorm.read (Elt F) (VNorm.writes (Elt F) VNorm.junk (runMiddle c i arg3 harg3 arg4 harg4 arg5 harg5 arg6 harg6 arg7 harg7 arg8 harg8 arg9 harg9 arg10 harg10 arg11 harg11 hc0 hc1 x0 x1 x2 x3 xs0 xs1 xs2 xs3).2.1)

/-- The pieces the middle-tile case writes into the acc scratch tile it. -/
theorem coverMiddleAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1024.Idx) :
    ∃ pc ∈ (runMiddle c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (runMiddle c i arg3 harg3 arg4 harg4 arg5 harg5 arg6 harg6 arg7 harg7 arg8 harg8 arg9 harg9 arg10 harg10 arg11 harg11 hc0 hc1 x0 x1 x2 x3 xs0 xs1 xs2 xs3).2.2.1 S1024x1024.size (by sl_kernel_rfl) y

/-- What the middle-tile case leaves in the acc scratch: its pieces read back. -/
def leftMiddleAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1024 .f32 :=
  VAcc.read (Elt F) (VAcc.writes (Elt F) VAcc.junk (runMiddle c i arg3 harg3 arg4 harg4 arg5 harg5 arg6 harg6 arg7 harg7 arg8 harg8 arg9 harg9 arg10 harg10 arg11 harg11 hc0 hc1 x0 x1 x2 x3 xs0 xs1 xs2 xs3).2.2.1)

/-- The pieces the last-tile case writes into the max scratch tile it. -/
theorem coverLastMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What the last-tile case leaves in the max scratch: its pieces read back. -/
def leftLastMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VMax.read (Elt F) (VMax.writes (Elt F) VMax.junk (runLast c i arg3 harg3 arg4 harg4 arg5 harg5 arg6 harg6 arg7 harg7 arg8 harg8 arg9 harg9 arg10 harg10 arg11 harg11 hc0 hc1 x0 x1 x2 x3 xs0 xs1 xs2 xs3).2.1)

/-- The pieces the last-tile case writes into the norm scratch tile it. -/
theorem coverLastNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What the last-tile case leaves in the norm scratch: its pieces read back. -/
def leftLastNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VNorm.read (Elt F) (VNorm.writes (Elt F) VNorm.junk (runLast c i arg3 harg3 arg4 harg4 arg5 harg5 arg6 harg6 arg7 harg7 arg8 harg8 arg9 harg9 arg10 harg10 arg11 harg11 hc0 hc1 x0 x1 x2 x3 xs0 xs1 xs2 xs3).2.2.1)

/-- The pieces the last-tile case writes into the acc scratch tile it. -/
theorem coverLastAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1024.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).2.2.2.1 S1024x1024.size (by sl_kernel_rfl) y

/-- What the last-tile case leaves in the acc scratch: its pieces read back. -/
def leftLastAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1024 .f32 :=
  VAcc.read (Elt F) (VAcc.writes (Elt F) VAcc.junk (runLast c i arg3 harg3 arg4 harg4 arg5 harg5 arg6 harg6 arg7 harg7 arg8 harg8 arg9 harg9 arg10 harg10 arg11 harg11 hc0 hc1 x0 x1 x2 x3 xs0 xs1 xs2 xs3).2.2.2.1)

/-- The pieces the last-tile case writes into the output block tile it. -/
theorem coverLastOut (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1x1024x1024.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).1 S1x1024x1024.size (by sl_kernel_rfl) y

/-- What the last-tile case leaves in the output block: its pieces read back. -/
def leftLastOut (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1x1024x1024 .f32 :=
  VOut.read (Elt F) (VOut.writes (Elt F) VOut.junk (runLast c i arg3 harg3 arg4 harg4 arg5 harg5 arg6 harg6 arg7 harg7 arg8 harg8 arg9 harg9 arg10 harg10 arg11 harg11 hc0 hc1 x0 x1 x2 x3 xs0 xs1 xs2 xs3).1)

/-! ## What the buffers hold after each point -/

/-- What the output block's buffer and the four scratch buffers hold after a point. -/
structure PointState (F : FTy → Type) [FloatOps F] where
  out : Vec F S1x1024x1024 .f32
  mx : Vec F S1024x1 .f32
  nm : Vec F S1024x1 .f32
  acc : Vec F S1024x1024 .f32
  q : Vec F S1024x1024 .bf16

/-- The state after the body at position `n`: at a first key tile what the first-tile case leaves (nothing is read
    from before); otherwise what the middle- or last-tile case leaves over the state after position `n - 1`. Where the
    output block is not stored its component is a placeholder nothing consults. -/
def stateAt (c : Dev nD) : (n : ℕ) → n < cfg0.N → PointState F
  | 0, hn => ⟨VOut.read (Elt F) VOut.junk, leftFirstMax c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), leftFirstNorm c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), leftFirstAcc c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), leftFirstQ c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩)⟩
  | n + 1, hn =>
    if h0 : (n + 1) % 8 = 0 then
      ⟨VOut.read (Elt F) VOut.junk, leftFirstMax c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩), leftFirstNorm c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩), leftFirstAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩), leftFirstQ c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩)⟩
    else if h1 : (n + 1) % 8 = 7 then
      ⟨leftLastOut c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftLastMax c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftLastNorm c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftLastAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, (stateAt c n (Nat.lt_of_succ_lt hn)).q⟩
    else
      ⟨VOut.read (Elt F) VOut.junk, leftMiddleMax c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftMiddleNorm c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftMiddleAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, (stateAt c n (Nat.lt_of_succ_lt hn)).q⟩

theorem stateAt_first (c : Dev nD) (t : Fin cfg0.N) (h0 : t.val % 8 = 0) (h1 : ¬t.val % 8 = 7) :
    stateAt m c t.val t.isLt = ⟨VOut.read (Elt F) VOut.junk, leftFirstMax c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstNorm c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstAcc c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstQ c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)⟩ := by
  obtain ⟨n, hn⟩ := t
  cases n with
  | zero => exact rfl
  | succ n => exact (dif_pos h0).trans rfl

theorem stateAt_middle (c : Dev nD) (t : Fin cfg0.N) (h0 : ¬t.val % 8 = 0) (h1 : ¬t.val % 8 = 7) :
    stateAt m c t.val t.isLt = ⟨VOut.read (Elt F) VOut.junk, leftMiddleMax c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftMiddleNorm c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftMiddleAcc c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, (stateAt m c (t.val - 1) (Nat.lt_of_le_of_lt (Nat.sub_le _ _) t.isLt)).q⟩ := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = ⟨leftLastOut c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastMax c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastNorm c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastAcc c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, (stateAt m c (t.val - 1) (Nat.lt_of_le_of_lt (Nat.sub_le _ _) t.isLt)).q⟩ := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before the first point, the four scratch buffers at anything; before any later point, each at what the point before
    left in it. The generator register is at some state throughout. -/
def PhiS (c : Dev nD) : (n : ℕ) → n ≤ cfg0.N → sProp 𝕄
  | 0, _ => Pipeline.ΦA spec0 c
  | n + 1, hn => iprop(iprop(owns (c : Thread nD τ) scMax fullShare (stateAt m c n hn).mx ∗ owns (c : Thread nD τ) scNorm fullShare (stateAt m c n hn).nm ∗ owns (c : Thread nD τ) scAcc fullShare (stateAt m c n hn).acc ∗ owns (c : Thread nD τ) scQ fullShare (stateAt m c n hn).q) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare (stateAt m c n hn).mx ∗ owns (c : Thread nD τ) scNorm fullShare (stateAt m c n hn).nm ∗ owns (c : Thread nD τ) scAcc fullShare (stateAt m c n hn).acc ∗ owns (c : Thread nD τ) scQ fullShare (stateAt m c n hn).q) ∗ (∃ r, prngReg c r)) := rfl

theorem PhiS_pos (c : Dev nD) (n : ℕ) (h : n ≤ cfg0.N) (hz : n ≠ 0) :
    PhiS m c n h = iprop(iprop(owns (c : Thread nD τ) scMax fullShare (stateAt m c (n - 1) (by omega)).mx ∗ owns (c : Thread nD τ) scNorm fullShare (stateAt m c (n - 1) (by omega)).nm ∗ owns (c : Thread nD τ) scAcc fullShare (stateAt m c (n - 1) (by omega)).acc ∗ owns (c : Thread nD τ) scQ fullShare (stateAt m c (n - 1) (by omega)).q) ∗ (∃ r, prngReg c r)) := by
  cases n with
  | zero => exact absurd rfl hz
  | succ n => rfl

/-! ## The pipeline's proof data -/

/-- The proof data on core `c`: the arrays as the region finds them; after the body each input's buffer at its block
    and the output's at the state's component; the invariant above; the two windows on the first argument hold a half
    of it each, and so the two windows on the reshaped mask; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).out
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stateAt m c t.val t.isLt).out := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; the key-tile coordinate says which case the point is in;
    the invariant hands the body the scratch at what the point before left (at anything at the very first point) and
    takes it back at this point's contents; away from the last key tile the output's buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · have h1 : ¬t.val % 8 = 7 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4 t (fun h => h1 ((hcondLast t).mp h))) (noFlush4 t (fun h => h1 ((hcondLast t).mp h)))]
    rw [stateAt_first m c t h0 h1]
    unfold leftFirstMax leftFirstNorm leftFirstAcc leftFirstQ; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverFirstMax c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirstNorm c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirstAcc c _ _ _ _ _ _ _ _ _ _ _ _ _ _ _ _ _ _ _ _ _ _ _ _ _)
          unfold owns; iexists _; isplitr
          swap; · iexact HS3
          ipureintro; exact View.read_writes_of_cover _ _ _ _ _ (coverFirstQ c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverFirstMax c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirstNorm c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirstAcc c _ _ _ _ _ _ _ _ _ _ _ _ _ _ _ _ _ _ _ _ _ _ _ _ _)
          unfold owns; iexists _; isplitr
          swap; · iexact HS3
          ipureintro; exact View.read_writes_of_cover _ _ _ _ _ (coverFirstQ c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((hcondLast t).mpr h1)], after4]
      rw [stateAt_last m c t h0 h1]
      unfold leftLastOut leftLastMax leftLastNorm leftLastAcc; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [HS0 HS1 HS2 HS3 Hg]
      · isplitr [Hg]
        · isplitl [HS0]
          · unfold owns; iexists _; isplitr
            swap; · iexact HS0
            ipureintro; exact View.read_writes_of_cover _ _ _ _ _ (coverLastMax c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLastNorm c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverLastAcc c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((hcondLast t).mp h))) (noFlush4 t (fun h => h1 ((hcondLast t).mp h)))]
      rw [stateAt_middle m c t h0 h1]
      unfold leftMiddleMax leftMiddleNorm leftMiddleAcc; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runMiddle c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitr [Hg]
        · isplitl [HS0]
          · unfold owns; iexists _; isplitr
            swap; · iexact HS0
            ipureintro; exact View.read_writes_of_cover _ _ _ _ _ (coverMiddleMax c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMiddleNorm c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverMiddleAcc c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back, its contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

/-- Every weakly fair execution of @main terminates without a fault; the pipeline's arrays end at what the proof data
    compute, every other unscoped buffer as the region found it. -/
theorem run_main : θ_run defs (onTc (τ := τ) (main (F := F))) (s₀ m ρ) (Pipeline.FramePost cfgs (dats m) 0 (V m)) :=
  Launch.run_of m ρ Variants.none (dats m) (A_eq m) (fun _ => rfl) (fun _ => rfl) (fun _ => rfl) (fun _ => rfl)
    (fun _ _ => rfl) (fun c => (body_obligation m c).loose) (hin m) (hout m)

/-- The frame: both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Launch.frame_of m ρ (dats m) (A_eq m) (run_main m ρ)

/-- The run with the result array named: it ends at what the proof data compute for the output window. -/
theorem run_out : θ_run defs (onTc (τ := τ) (main (F := F))) ⟨m, fun _ => 0, ρ⟩ (fun r => ∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Launch.post_of m ρ (dats m) (A_eq m) (run_main m ρ)

end Cert.Kernel.Body

end
-- ==== Proof.KernelIdealRuns.lean ====
/-
  The attention kernel's body, case by case: what the case distinction is and where it falls on the grid.

  The grid is 8 sequences × 2 query tiles × 8 key tiles, the key tile innermost, so a point `t` works on key tile
  `t mod 8` of query tile `(t / 8) mod 2` of sequence `t / 16`. The body has two conditionals on the key-tile coordinate:
  at the FIRST key tile (`t ≡ 0 mod 8`) it resets the running maximum, the running normaliser and the running weighted
  sum and stores the scaled masked query tile; at the LAST key tile (`t ≡ 7 mod 8`) it divides the weighted sum by the
  normaliser into the output block. So there are three cases — first, middle, last — and the output block is stored (and
  written back) at the last key tile only.
-/
import proofs.«108820_j20366734917932_2_alg».proof.Proof.Gen.KernelIdeal.Launch
import proofs.«108820_j20366734917932_2_alg».proof.Proof.Gen.KernelIdeal.Skeleton
import proofs.«108820_j20366734917932_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, over the grid -/

/-- "This is the first key tile": the body's first conditional, as a proposition of the grid coordinates. -/
abbrev condFirst (i : grid0.Coords) : Prop := (Scalar.cmpi .ne (Scalar.extui (Scalar.cmpi .eq (BitVec.ofNat 32 (i 2).val) 0#32)) 0#32) = 1#1
/-- It holds exactly at the points whose key-tile coordinate is 0. -/
theorem hcondFirst : ∀ t : Fin cfg0.N, condFirst (grid0.coords t) ↔ t.val % 8 = 0 :=
  (by decide +kernel : ∀ t : Fin grid0.N, condFirst (grid0.coords t) ↔ t.val % 8 = 0)

/-- "This is the last key tile": the body's second conditional. -/
abbrev condLast (i : grid0.Coords) : Prop := k0_cond2 i = 1#1
/-- It holds exactly at the points whose key-tile coordinate is 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last key tile the output block is neither stored into nor written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
/-- At the last key tile it is stored. -/
theorem live4 : ∀ t : Fin cfg0.N, condLast (grid0.coords t) → cfg0.idle 4 (grid0.coords t) = false := by decide +kernel

/-! ## The memrefs the body is called with -/

abbrev ms0 (t : Fin cfg0.N) : Memref sig .tc .vmem S1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)

/-- The four scratch operands: the running maximum, the running normaliser, the running weighted sum, and the scaled
    masked query tile. -/
abbrev scMax : Memref sig .tc .vmem S1024x1 .f32 := Memref.whole cc0_scratch0
abbrev scNorm : Memref sig .tc .vmem S1024x1 .f32 := Memref.whole cc0_scratch1
abbrev scAcc : Memref sig .tc .vmem S1024x1024 .f32 := Memref.whole cc0_scratch2
abbrev scQ : Memref sig .tc .vmem S1024x1024 .bf16 := Memref.whole cc0_scratch3

/-- One staging buffer of the output window, and the scratch operands, as views through which contents are stated. -/
abbrev VOut : View sig .tc .vmem S1x1024x1024 .f32 := (Memref.whole cc0_stg4_0 : Memref sig .tc .vmem S1x1024x1024 .f32).view
abbrev VMax : View sig .tc .vmem S1024x1 .f32 := scMax.view
abbrev VNorm : View sig .tc .vmem S1024x1 .f32 := scNorm.view
abbrev VAcc : View sig .tc .vmem S1024x1024 .f32 := scAcc.view
abbrev VQ : View sig .tc .vmem S1024x1024 .bf16 := scQ.view

/-- Before the first point the region holds the four scratch buffers at unknown contents, and the generator register. -/
theorem PhiA_eq (c : Dev nD) :
    (Pipeline.ΦA spec0 c : sProp 𝕄)
      = iprop(iprop((∃ d, owns (c : Thread nD τ) scMax fullShare d) ∗ (∃ d, owns (c : Thread nD τ) scNorm fullShare d) ∗ (∃ d, owns (c : Thread nD τ) scAcc fullShare d) ∗ (∃ d, owns (c : Thread nD τ) scQ fullShare d)) ∗ (∃ r, prngReg c r)) := by
  unfold Pipeline.ΦA; rw [scopedRest0_eq]; simp only [scMax, scNorm, scAcc, scQ, owns_whole]; try rfl

end Cert.KernelIdeal.Body

end
-- ==== Proof.KernelIdealRunA.lean ====
/-
  The body at a FIRST key tile (not the last): it resets the running maximum to -∞, the normaliser and the weighted sum to
  zero, stores the scaled masked query tile, and then makes the general step on the key tile. The output block is not
  touched. What each scratch buffer is left holding is found by running the body: the pieces its stores write.
-/
import proofs.«108820_j20366734917932_2_alg».proof.Proof.KernelIdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a first key tile, on whole memrefs: the four input blocks at their contents, the output's buffer
    at contents handed back untouched, the four scratch buffers at anything; it leaves each scratch buffer with the
    pieces its stores wrote. -/
noncomputable def runFirst (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i)
    (x0 : Vec F S1x1024x1024 .f32) (x1 : Vec F S1x256x1024 .f32) (x2 : Vec F S1x1024x1 .f32) (x3 : Vec F S1x256x1 .f32) :
    Σ' (LS0 : List (View.Piece (Elt F) S1024x1 .f32)), Σ' (LS1 : List (View.Piece (Elt F) S1024x1 .f32)), Σ' (LS2 : List (View.Piece (Elt F) S1024x1024 .f32)), { LS3 : List (View.Piece (Elt F) S1024x1024 .bf16) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Body

end
-- ==== Proof.KernelIdealRunB.lean ====
/-
  The body at a MIDDLE key tile: the general step only — the running maximum, normaliser and weighted sum are read at what
  the key tile before left and stored anew; the scaled masked query tile is read and left as it is; the output block is
  not touched.
-/
import proofs.«108820_j20366734917932_2_alg».proof.Proof.KernelIdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a middle key tile. -/
noncomputable def runMiddle (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i)
    (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    Σ' (LS0 : List (View.Piece (Elt F) S1024x1 .f32)), Σ' (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Body

end
-- ==== Proof.KernelIdealRunC.lean ====
/-
  The body at the LAST key tile: the general step, and then the weighted sum divided by the normaliser is stored, whole,
  into the output block.
-/
import proofs.«108820_j20366734917932_2_alg».proof.Proof.KernelIdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last key tile. -/
noncomputable def runLast (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i)
    (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    Σ' (L4 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Body

end
-- ==== Proof.KernelIdealLaunch.lean ====
/-
  The launch of `KernelIdeal`'s one region, whose windows share arrays: windows 0 and 1 read `main_arg0`, windows 2 and 3
  read `main_v0` (the reshape of `main_arg1` that @main computes before the region), window 4 writes `main_v1`.

  The full share of an array read through two windows is split in two halves, one per window; the output's array is
  held whole. With that splitting (`hsplit_of`) the frame run for shared arrays (`Pipeline.θ_run_frame_track_shared`)
  gives the run of @main for any proof data over the region-entry contents (`run_of`), from which the two argument
  arrays are read back unchanged (`frame_of`) and the result array at what the write-backs leave (`post_of`).
-/
import proofs.«108820_j20366734917932_2_alg».proof.Proof.Gen.KernelIdeal.Launch
import proofs.«108820_j20366734917932_2_alg».proof.Proof.Gen.KernelIdeal.Points
import proofs.«108820_j20366734917932_2_alg».proof.Proof.Gen.KernelIdeal.Skeleton
import proofs.«108820_j20366734917932_2_alg».proof.Proof.LibSharedFrame

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the reshape of `main_arg1` into `main_v0`. -/
abbrev V (c : Dev nD) (b : Ref sig .tc) : Buf (Elt F) ((c : Thread nD τ).loc b) :=
  StableHlo.after hostOps0 (fun b => m (c, b)) b

/-- The reshape allocates nothing. -/
theorem hostOps0_fresh : (hostOps0 : List (HloOp τ sig (Elt F))).Forall fun op => op.fresh = ∅ := by
  simp only [List.Forall]; repeat' constructor

/-- @main up to the region: the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes `main_v0` only: the region finds `main_arg0` as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- and `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-! ## The arrays split among the windows -/

/-- The buffers behind the windows' arrays: `main_arg0` (windows 0 and 1), `main_v0` (windows 2 and 3), `main_v1` (window 4). -/
theorem arrRefs0 : Finset.univ.image (Pipeline.arrRef spec0) = [main_arg0, main_v0, main_v1].toFinset := by decide

/-- `Pipeline.arrBufs` buffer by buffer. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_v0, main_v1] arrRefs0 (by decide) _

/-- THE SPLITTING: the three buffers behind the arrays, whole at the full share at the region-entry contents, are the
    proof data's `arrays` at entry when the two windows on `main_arg0` hold the two halves of its full share, the two
    on `main_v0` the two halves of its, and the output window `main_v1` whole (an output's share is the full one
    whatever `q` says). -/
theorem hsplit_of {c : Dev nD} (dat : Dat τ (Elt F) Unit ℕ (UR sig nD τ) ℕ cfg0 c)
    (hA : ∀ w, dat.A w = V m c (Pipeline.arrRef spec0 w))
    (hq0 : dat.q 0 = fullShare.left) (hq1 : dat.q 1 = fullShare.right)
    (hq2 : dat.q 2 = fullShare.left) (hq3 : dat.q 3 = fullShare.right) :
    (Pipeline.arrBufs spec0 c (V m c) : sProp 𝕄) ⊢ dat.arrays (dat.arrAt · 0) := by
  have hwin : ∀ (w : Fin 5) (q : PosShare TreeShare), dat.share w = q →
      ((((c : Thread nD τ).loc (Pipeline.arrRef spec0 w)) ↦{q} V m c (Pipeline.arrRef spec0 w) : sProp 𝕄))
        ⊢ ((cfg0.win w).arr.view.loc (c.tc : Thread nD τ) ↦[(cfg0.win w).arr.view.set]{dat.share w} dat.arrAt w 0) := by
    intro w q hq
    rw [hq, (arr_whole0 w).set_eq_univ, show dat.arrAt w 0 = dat.A w from rfl, hA w]
  have halves : ∀ b : Ref sig .tc, ((((c : Thread nD τ).loc b) ↦{fullShare} V m c b : sProp 𝕄))
      ⊢ iprop((((c : Thread nD τ).loc b) ↦{fullShare.left} V m c b) ∗ (((c : Thread nD τ).loc b) ↦{fullShare.right} V m c b)) :=
    fun b => (pointsTo_share (PosShare.mem_left_op_right fullShare)).1
  have e0 : dat.share 0 = fullShare.left := by unfold Dat.share; rw [if_neg (by decide)]; exact hq0
  have e1 : dat.share 1 = fullShare.right := by unfold Dat.share; rw [if_neg (by decide)]; exact hq1
  have e2 : dat.share 2 = fullShare.left := by unfold Dat.share; rw [if_neg (by decide)]; exact hq2
  have e3 : dat.share 3 = fullShare.right := by unfold Dat.share; rw [if_neg (by decide)]; exact hq3
  have e4 : dat.share 4 = fullShare := by unfold Dat.share; rw [if_pos (by decide)]
  rw [arrBufs0_eq]
  unfold Dat.arrays
  rw [bigSep_W0]
  refine (BIClass.sep_mono (halves main_arg0) (sep_mono_left (halves main_v0))).trans ?_
  iintro ⟨⟨H0, H1⟩, ⟨H2, H3⟩, H4⟩
  isplitl [H0]; · iapply (hwin 0 _ e0); iexact H0
  isplitl [H1]; · iapply (hwin 1 _ e1); iexact H1
  isplitl [H2]; · iapply (hwin 2 _ e2); iexact H2
  isplitl [H3]; · iapply (hwin 3 _ e3); iexact H3
  iapply (hwin 4 _ e4); iexact H4

/-! ## The run -/

/-- THE RUN of @main for any proof data over the region-entry contents (`hA`) that split the shared arrays' shares in
    halves (`hq0` … `hq3`), owe nothing, satisfy the body obligation, and whose invariant is entered from the class
    invariant before point 0 and returns to it after the last point. -/
theorem run_of (𝒱₀ : Variants) (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare.left) (hq3 : ∀ c, (dats 0 c).q 3 = fullShare.right)
    (howed : ∀ c t, (dats 0 c).owed t = 0)
    (hbody : ∀ c, Pipeline.BodyObligationLoose (dats 0 c) defs₀ 𝒱₀ () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (V m)) :=
  Pipeline.θ_run_frame_track_shared cfgs dats (0 : Fin 1) defs₀ 𝒱₀ cellOf_inj winFacts₀0 block_pos0 arr_whole0 stage_whole0 m ρ main
    hbody howed (V m) (hmain m 𝒱₀) (fun c => hsplit_of m (dats 0 c) (hA c) (hq0 c) (hq1 c) (hq2 c) (hq3 c)) hin hout

/-! ## The frame claim's post from the run's -/

/-- THE FRAME from the run: `main_arg0` is window 0's array, an input's, so it ends at its entry contents
    (`Dat.arrAt_in`), which are the launch contents; `main_arg1` is no window's array, so it ends as the region found
    it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-- The same keeping the result array: `main_v1` is window 4's array, and ends at what the write-backs of all the
    points leave in it. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v1) = (dats 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4,
      ((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

end Cert.KernelIdeal.Launch

end
-- ==== Proof.KernelIdealFrame.lean ====
/-
  The attention kernel's frame: what the scratch buffers and the output block hold after each grid point, the invariant
  that carries the scratch from point to point, the proof data of the pipeline, and the body's obligation at every point.

  After the point on key tile `j` of a query tile, the running-maximum scratch holds the greatest score of each query
  row over key tiles `0..j`, the normaliser scratch the sum of the exponentials of those scores less that maximum, the
  weighted-sum scratch the same exponentials times the key rows, and the fourth scratch the scaled masked query tile; the
  first key tile starts them afresh, so nothing is carried from one query tile to the next. The output block is stored at
  the last key tile only, and written back there.
-/
import proofs.«108820_j20366734917932_2_alg».proof.Proof.KernelIdealRunC
import proofs.«108820_j20366734917932_2_alg».proof.Proof.KernelIdealLaunch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Launch (V)

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The pieces the first-tile case writes into the max scratch tile it. -/
theorem coverFirstMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1.Idx) :
    ∃ pc ∈ (runFirst c i arg3 harg3 arg4 harg4 arg5 harg5 arg6 harg6 arg7 harg7 arg8 harg8 arg9 harg9 arg10 harg10 arg11 harg11 hc0 hc1 x0 x1 x2 x3).1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).1 S1024x1.size (by sl_kernel_rfl) y

/-- What the first-tile case leaves in the max scratch: its pieces read back. -/
def leftFirstMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1 .f32 :=
  VMax.read (Elt F) (VMax.writes (Elt F) VMax.junk (runFirst c i arg3 harg3 arg4 harg4 arg5 harg5 arg6 harg6 arg7 harg7 arg8 harg8 arg9 harg9 arg10 harg10 arg11 harg11 hc0 hc1 x0 x1 x2 x3).1)

/-- The pieces the first-tile case writes into the norm scratch tile it. -/
theorem coverFirstNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1.Idx) :
    ∃ pc ∈ (runFirst c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).2.1 S1024x1.size (by sl_kernel_rfl) y

/-- What the first-tile case leaves in the norm scratch: its pieces read back. -/
def leftFirstNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1 .f32 :=
  VNorm.read (Elt F) (VNorm.writes (Elt F) VNorm.junk (runFirst c i arg3 harg3 arg4 harg4 arg5 harg5 arg6 harg6 arg7 harg7 arg8 harg8 arg9 harg9 arg10 harg10 arg11 harg11 hc0 hc1 x0 x1 x2 x3).2.1)

/-- The pieces the first-tile case writes into the acc scratch tile it. -/
theorem coverFirstAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1024.Idx) :
    ∃ pc ∈ (runFirst c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).2.2.1 S1024x1024.size (by sl_kernel_rfl) y

/-- What the first-tile case leaves in the acc scratch: its pieces read back. -/
def leftFirstAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1024 .f32 :=
  VAcc.read (Elt F) (VAcc.writes (Elt F) VAcc.junk (runFirst c i arg3 harg3 arg4 harg4 arg5 harg5 arg6 harg6 arg7 harg7 arg8 harg8 arg9 harg9 arg10 harg10 arg11 harg11 hc0 hc1 x0 x1 x2 x3).2.2.1)

/-- The pieces the first-tile case writes into the q scratch tile it. -/
theorem coverFirstQ (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) (y : S1024x1024.Idx) :
    ∃ pc ∈ (runFirst c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3).2.2.2.1 S1024x1024.size (by sl_kernel_rfl) y

/-- What the first-tile case leaves in the q scratch: its pieces read back. -/
def leftFirstQ (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) : Vec F S1024x1024 .bf16 :=
  VQ.read (Elt F) (VQ.writes (Elt F) VQ.junk (runFirst c i arg3 harg3 arg4 harg4 arg5 harg5 arg6 harg6 arg7 harg7 arg8 harg8 arg9 harg9 arg10 harg10 arg11 harg11 hc0 hc1 x0 x1 x2 x3).2.2.2.1)

/-- The pieces the middle-tile case writes into the max scratch tile it. -/
theorem coverMiddleMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runMiddle c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (runMiddle c i arg3 harg3 arg4 harg4 arg5 harg5 arg6 harg6 arg7 harg7 arg8 harg8 arg9 harg9 arg10 harg10 arg11 harg11 hc0 hc1 x0 x1 x2 x3 xs0 xs1 xs2 xs3).1 S1024x1.size (by sl_kernel_rfl) y

/-- What the middle-tile case leaves in the max scratch: its pieces read back. -/
def leftMiddleMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VMax.read (Elt F) (VMax.writes (Elt F) VMax.junk (runMiddle c i arg3 harg3 arg4 harg4 arg5 harg5 arg6 harg6 arg7 harg7 arg8 harg8 arg9 harg9 arg10 harg10 arg11 harg11 hc0 hc1 x0 x1 x2 x3 xs0 xs1 xs2 xs3).1)

/-- The pieces the middle-tile case writes into the norm scratch tile it. -/
theorem coverMiddleNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runMiddle c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (runMiddle c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What the middle-tile case leaves in the norm scratch: its pieces read back. -/
def leftMiddleNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VNorm.read (Elt F) (VNorm.writes (Elt F) VNorm.junk (runMiddle c i arg3 harg3 arg4 harg4 arg5 harg5 arg6 harg6 arg7 harg7 arg8 harg8 arg9 harg9 arg10 harg10 arg11 harg11 hc0 hc1 x0 x1 x2 x3 xs0 xs1 xs2 xs3).2.1)

/-- The pieces the middle-tile case writes into the acc scratch tile it. -/
theorem coverMiddleAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1024.Idx) :
    ∃ pc ∈ (runMiddle c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (runMiddle c i arg3 harg3 arg4 harg4 arg5 harg5 arg6 harg6 arg7 harg7 arg8 harg8 arg9 harg9 arg10 harg10 arg11 harg11 hc0 hc1 x0 x1 x2 x3 xs0 xs1 xs2 xs3).2.2.1 S1024x1024.size (by sl_kernel_rfl) y

/-- What the middle-tile case leaves in the acc scratch: its pieces read back. -/
def leftMiddleAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1024 .f32 :=
  VAcc.read (Elt F) (VAcc.writes (Elt F) VAcc.junk (runMiddle c i arg3 harg3 arg4 harg4 arg5 harg5 arg6 harg6 arg7 harg7 arg8 harg8 arg9 harg9 arg10 harg10 arg11 harg11 hc0 hc1 x0 x1 x2 x3 xs0 xs1 xs2 xs3).2.2.1)

/-- The pieces the last-tile case writes into the max scratch tile it. -/
theorem coverLastMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).2.1 S1024x1.size (by sl_kernel_rfl) y

/-- What the last-tile case leaves in the max scratch: its pieces read back. -/
def leftLastMax (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VMax.read (Elt F) (VMax.writes (Elt F) VMax.junk (runLast c i arg3 harg3 arg4 harg4 arg5 harg5 arg6 harg6 arg7 harg7 arg8 harg8 arg9 harg9 arg10 harg10 arg11 harg11 hc0 hc1 x0 x1 x2 x3 xs0 xs1 xs2 xs3).2.1)

/-- The pieces the last-tile case writes into the norm scratch tile it. -/
theorem coverLastNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).2.2.1 S1024x1.size (by sl_kernel_rfl) y

/-- What the last-tile case leaves in the norm scratch: its pieces read back. -/
def leftLastNorm (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1 .f32 :=
  VNorm.read (Elt F) (VNorm.writes (Elt F) VNorm.junk (runLast c i arg3 harg3 arg4 harg4 arg5 harg5 arg6 harg6 arg7 harg7 arg8 harg8 arg9 harg9 arg10 harg10 arg11 harg11 hc0 hc1 x0 x1 x2 x3 xs0 xs1 xs2 xs3).2.2.1)

/-- The pieces the last-tile case writes into the acc scratch tile it. -/
theorem coverLastAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1024x1024.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).2.2.2.1 S1024x1024.size (by sl_kernel_rfl) y

/-- What the last-tile case leaves in the acc scratch: its pieces read back. -/
def leftLastAcc (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1024x1024 .f32 :=
  VAcc.read (Elt F) (VAcc.writes (Elt F) VAcc.junk (runLast c i arg3 harg3 arg4 harg4 arg5 harg5 arg6 harg6 arg7 harg7 arg8 harg8 arg9 harg9 arg10 harg10 arg11 harg11 hc0 hc1 x0 x1 x2 x3 xs0 xs1 xs2 xs3).2.2.2.1)

/-- The pieces the last-tile case writes into the output block tile it. -/
theorem coverLastOut (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) (y : S1x1024x1024.Idx) :
    ∃ pc ∈ (runLast c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 xs0 xs1 xs2 xs3).1 S1x1024x1024.size (by sl_kernel_rfl) y

/-- What the last-tile case leaves in the output block: its pieces read back. -/
def leftLastOut (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) : Vec F S1x1024x1024 .f32 :=
  VOut.read (Elt F) (VOut.writes (Elt F) VOut.junk (runLast c i arg3 harg3 arg4 harg4 arg5 harg5 arg6 harg6 arg7 harg7 arg8 harg8 arg9 harg9 arg10 harg10 arg11 harg11 hc0 hc1 x0 x1 x2 x3 xs0 xs1 xs2 xs3).1)

/-! ## What the buffers hold after each point -/

/-- What the output block's buffer and the four scratch buffers hold after a point. -/
structure PointState (F : FTy → Type) [FloatOps F] where
  out : Vec F S1x1024x1024 .f32
  mx : Vec F S1024x1 .f32
  nm : Vec F S1024x1 .f32
  acc : Vec F S1024x1024 .f32
  q : Vec F S1024x1024 .bf16

/-- The state after the body at position `n`: at a first key tile what the first-tile case leaves (nothing is read
    from before); otherwise what the middle- or last-tile case leaves over the state after position `n - 1`. Where the
    output block is not stored its component is a placeholder nothing consults. -/
def stateAt (c : Dev nD) : (n : ℕ) → n < cfg0.N → PointState F
  | 0, hn => ⟨VOut.read (Elt F) VOut.junk, leftFirstMax c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), leftFirstNorm c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), leftFirstAcc c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩), leftFirstQ c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scNorm (Memref.isWhole_whole _) scAcc (Memref.isWhole_whole _) scQ (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩)⟩
  | n + 1, hn =>
    if h0 : (n + 1) % 8 = 0 then
      ⟨VOut.read (Elt F) VOut.junk, leftFirstMax c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩), leftFirstNorm c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩), leftFirstAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩), leftFirstQ c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩)⟩
    else if h1 : (n + 1) % 8 = 7 then
      ⟨leftLastOut c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftLastMax c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftLastNorm c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftLastAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, (stateAt c n (Nat.lt_of_succ_lt hn)).q⟩
    else
      ⟨VOut.read (Elt F) VOut.junk, leftMiddleMax c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftMiddleNorm c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, leftMiddleAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scNorm (Memref.isWhole_whole _) scAcc (Memref.isWhole_whole _) scQ (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).mx (stateAt c n (Nat.lt_of_succ_lt hn)).nm (stateAt c n (Nat.lt_of_succ_lt hn)).acc (stateAt c n (Nat.lt_of_succ_lt hn)).q, (stateAt c n (Nat.lt_of_succ_lt hn)).q⟩

theorem stateAt_first (c : Dev nD) (t : Fin cfg0.N) (h0 : t.val % 8 = 0) (h1 : ¬t.val % 8 = 7) :
    stateAt m c t.val t.isLt = ⟨VOut.read (Elt F) VOut.junk, leftFirstMax c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstNorm c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstAcc c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstQ c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)⟩ := by
  obtain ⟨n, hn⟩ := t
  cases n with
  | zero => exact rfl
  | succ n => exact (dif_pos h0).trans rfl

theorem stateAt_middle (c : Dev nD) (t : Fin cfg0.N) (h0 : ¬t.val % 8 = 0) (h1 : ¬t.val % 8 = 7) :
    stateAt m c t.val t.isLt = ⟨VOut.read (Elt F) VOut.junk, leftMiddleMax c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftMiddleNorm c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftMiddleAcc c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, (stateAt m c (t.val - 1) (Nat.lt_of_le_of_lt (Nat.sub_le _ _) t.isLt)).q⟩ := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = ⟨leftLastOut c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastMax c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastNorm c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastAcc c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, (stateAt m c (t.val - 1) (Nat.lt_of_le_of_lt (Nat.sub_le _ _) t.isLt)).q⟩ := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before the first point, the four scratch buffers at anything; before any later point, each at what the point before
    left in it. The generator register is at some state throughout. -/
def PhiS (c : Dev nD) : (n : ℕ) → n ≤ cfg0.N → sProp 𝕄
  | 0, _ => Pipeline.ΦA spec0 c
  | n + 1, hn => iprop(iprop(owns (c : Thread nD τ) scMax fullShare (stateAt m c n hn).mx ∗ owns (c : Thread nD τ) scNorm fullShare (stateAt m c n hn).nm ∗ owns (c : Thread nD τ) scAcc fullShare (stateAt m c n hn).acc ∗ owns (c : Thread nD τ) scQ fullShare (stateAt m c n hn).q) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare (stateAt m c n hn).mx ∗ owns (c : Thread nD τ) scNorm fullShare (stateAt m c n hn).nm ∗ owns (c : Thread nD τ) scAcc fullShare (stateAt m c n hn).acc ∗ owns (c : Thread nD τ) scQ fullShare (stateAt m c n hn).q) ∗ (∃ r, prngReg c r)) := rfl

theorem PhiS_pos (c : Dev nD) (n : ℕ) (h : n ≤ cfg0.N) (hz : n ≠ 0) :
    PhiS m c n h = iprop(iprop(owns (c : Thread nD τ) scMax fullShare (stateAt m c (n - 1) (by omega)).mx ∗ owns (c : Thread nD τ) scNorm fullShare (stateAt m c (n - 1) (by omega)).nm ∗ owns (c : Thread nD τ) scAcc fullShare (stateAt m c (n - 1) (by omega)).acc ∗ owns (c : Thread nD τ) scQ fullShare (stateAt m c (n - 1) (by omega)).q) ∗ (∃ r, prngReg c r)) := by
  cases n with
  | zero => exact absurd rfl hz
  | succ n => rfl

/-! ## The pipeline's proof data -/

/-- The proof data on core `c`: the arrays as the region finds them; after the body each input's buffer at its block
    and the output's at the state's component; the invariant above; the two windows on the first argument hold a half
    of it each, and so the two windows on the reshaped mask; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).out
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stateAt m c t.val t.isLt).out := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; the key-tile coordinate says which case the point is in;
    the invariant hands the body the scratch at what the point before left (at anything at the very first point) and
    takes it back at this point's contents; away from the last key tile the output's buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · have h1 : ¬t.val % 8 = 7 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4 t (fun h => h1 ((hcondLast t).mp h))) (noFlush4 t (fun h => h1 ((hcondLast t).mp h)))]
    rw [stateAt_first m c t h0 h1]
    unfold leftFirstMax leftFirstNorm leftFirstAcc leftFirstQ; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverFirstMax c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirstNorm c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirstAcc c _ _ _ _ _ _ _ _ _ _ _ _ _ _ _ _ _ _ _ _ _ _ _ _ _)
          unfold owns; iexists _; isplitr
          swap; · iexact HS3
          ipureintro; exact View.read_writes_of_cover _ _ _ _ _ (coverFirstQ c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (coverFirstMax c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverFirstNorm c _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverFirstAcc c _ _ _ _ _ _ _ _ _ _ _ _ _ _ _ _ _ _ _ _ _ _ _ _ _)
          unfold owns; iexists _; isplitr
          swap; · iexact HS3
          ipureintro; exact View.read_writes_of_cover _ _ _ _ _ (coverFirstQ c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((hcondLast t).mpr h1)], after4]
      rw [stateAt_last m c t h0 h1]
      unfold leftLastOut leftLastMax leftLastNorm leftLastAcc; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [HS0 HS1 HS2 HS3 Hg]
      · isplitr [Hg]
        · isplitl [HS0]
          · unfold owns; iexists _; isplitr
            swap; · iexact HS0
            ipureintro; exact View.read_writes_of_cover _ _ _ _ _ (coverLastMax c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverLastNorm c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverLastAcc c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((hcondLast t).mp h))) (noFlush4 t (fun h => h1 ((hcondLast t).mp h)))]
      rw [stateAt_middle m c t h0 h1]
      unfold leftMiddleMax leftMiddleNorm leftMiddleAcc; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runMiddle c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitr [Hg]
        · isplitl [HS0]
          · unfold owns; iexists _; isplitr
            swap; · iexact HS0
            ipureintro; exact View.read_writes_of_cover _ _ _ _ _ (coverMiddleMax c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverMiddleNorm c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverMiddleAcc c _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back, its contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

/-- Every weakly fair execution of @main terminates without a fault; the pipeline's arrays end at what the proof data
    compute, every other unscoped buffer as the region found it. -/
theorem run_main : θ_run defs (onTc (τ := τ) (main (F := F))) (s₀ m ρ) (Pipeline.FramePost cfgs (dats m) 0 (V m)) :=
  Launch.run_of m ρ Variants.none (dats m) (A_eq m) (fun _ => rfl) (fun _ => rfl) (fun _ => rfl) (fun _ => rfl)
    (fun _ _ => rfl) (fun c => (body_obligation m c).loose) (hin m) (hout m)

/-- The frame: both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Launch.frame_of m ρ (dats m) (A_eq m) (run_main m ρ)

/-- The run with the result array named: it ends at what the proof data compute for the output window. -/
theorem run_out : θ_run defs (onTc (τ := τ) (main (F := F))) ⟨m, fun _ => 0, ρ⟩ (fun r => ∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Launch.post_of m ρ (dats m) (A_eq m) (run_main m ρ)

end Cert.KernelIdeal.Body

end
-- ==== Proof.KernelIdealPieces.lean ====
/-
  What each case of the attention body leaves in its buffers, as terms of the blocks it read and of what the point
  before left: the first key tile starts the running maximum from -∞ and the running normaliser and weighted sum from
  zero and stores the scaled masked query tile, then makes the general step; a later tile makes the general step on what
  the scratch held; the last tile also divides the weighted sum just stored by the normaliser just stored.
-/
import proofs.«108820_j20366734917932_2_alg».proof.Proof.KernelIdealFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- The zero offsets of a two-axis buffer, -/
theorem hz2 : (![0, 0] : Fin 2 → Nat) = fun _ => 0 := funext fun a => by fin_cases a <;> rfl
/-- and of a three-axis one. -/
theorem hz3 : (![0, 0, 0] : Fin 3 → Nat) = fun _ => 0 := funext fun a => by fin_cases a <;> rfl

/-- The first key tile stores the scaled masked query tile, rounded to bf16, in the fourth scratch. -/
theorem leftFirstQ_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) :
    leftFirstQ c i arg3 harg3 arg4 harg4 arg5 harg5 arg6 harg6 arg7 harg7 arg8 harg8 arg9 harg9 arg10 harg10 arg11 harg11 hc0 hc1 x0 x1 x2 x3 = k0_pay7 x0 x2 := by
  unfold leftFirstQ
  rw [View.read_writes_eq_canon _ _ _ (coverFirstQ c i arg3 harg3 arg4 harg4 arg5 harg5 arg6 harg6 arg7 harg7 arg8 harg8 arg9 harg9 arg10 harg10 arg11 harg11 hc0 hc1 x0 x1 x2 x3)]
  unfold runFirst
  dsimp only
  try sl_unfold_words
  rw [View.canon_cons_unit_zero (S := S1024x1024) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- The first key tile leaves the running maximum at the row maxima of its scores, started from -∞. -/
theorem leftFirstMax_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) :
    leftFirstMax c i arg3 harg3 arg4 harg4 arg5 harg5 arg6 harg6 arg7 harg7 arg8 harg8 arg9 harg9 arg10 harg10 arg11 harg11 hc0 hc1 x0 x1 x2 x3 = k0_pay2 (k0_pay11 (k0_pay7 x0 x2) x1 x3 (k0_pay4 (F := F))) := by
  unfold leftFirstMax
  rw [View.read_writes_eq_canon _ _ _ (coverFirstMax c i arg3 harg3 arg4 harg4 arg5 harg5 arg6 harg6 arg7 harg7 arg8 harg8 arg9 harg9 arg10 harg10 arg11 harg11 hc0 hc1 x0 x1 x2 x3)]
  unfold runFirst
  dsimp only
  try sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- The first key tile leaves the running normaliser at the row sums of its exponentials, started from zero. -/
theorem leftFirstNorm_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) :
    leftFirstNorm c i arg3 harg3 arg4 harg4 arg5 harg5 arg6 harg6 arg7 harg7 arg8 harg8 arg9 harg9 arg10 harg10 arg11 harg11 hc0 hc1 x0 x1 x2 x3 = k0_pay14 (k0_pay7 x0 x2) x1 x3 (k0_pay4 (F := F)) (k0_pay5 (F := F)) := by
  unfold leftFirstNorm
  rw [View.read_writes_eq_canon _ _ _ (coverFirstNorm c i arg3 harg3 arg4 harg4 arg5 harg5 arg6 harg6 arg7 harg7 arg8 harg8 arg9 harg9 arg10 harg10 arg11 harg11 hc0 hc1 x0 x1 x2 x3)]
  unfold runFirst
  dsimp only
  try sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- The first key tile leaves the running weighted sum at its exponentials times the key rows, started from zero. -/
theorem leftFirstAcc_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : condFirst i) (hc1 : ¬condLast i) (x0 : Vec F S1x1024x1024 .f32) (x1 : Vec F S1x256x1024 .f32) (x2 : Vec F S1x1024x1 .f32) (x3 : Vec F S1x256x1 .f32) :
    leftFirstAcc c i arg3 harg3 arg4 harg4 arg5 harg5 arg6 harg6 arg7 harg7 arg8 harg8 arg9 harg9 arg10 harg10 arg11 harg11 hc0 hc1 x0 x1 x2 x3 = k0_pay1 (k0_pay9 x1) (k0_pay13 (k0_pay7 x0 x2) x1 x3 (k0_pay4 (F := F))) (k0_pay15 (k0_pay7 x0 x2) x1 x3 (k0_pay4 (F := F)) (k0_pay6 (F := F))) := by
  unfold leftFirstAcc
  rw [View.read_writes_eq_canon _ _ _ (coverFirstAcc c i arg3 harg3 arg4 harg4 arg5 harg5 arg6 harg6 arg7 harg7 arg8 harg8 arg9 harg9 arg10 harg10 arg11 harg11 hc0 hc1 x0 x1 x2 x3)]
  unfold runFirst
  dsimp only
  try sl_unfold_words
  rw [View.canon_cons_unit_zero (S := S1024x1024) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- A later key tile raises the running maximum by the row maxima of its scores. -/
theorem leftMiddleMax_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftMiddleMax c i arg3 harg3 arg4 harg4 arg5 harg5 arg6 harg6 arg7 harg7 arg8 harg8 arg9 harg9 arg10 harg10 arg11 harg11 hc0 hc1 x0 x1 x2 x3 xs0 xs1 xs2 xs3 = k0_pay2 (k0_pay11 xs3 x1 x3 xs0) := by
  unfold leftMiddleMax
  rw [View.read_writes_eq_canon _ _ _ (coverMiddleMax c i arg3 harg3 arg4 harg4 arg5 harg5 arg6 harg6 arg7 harg7 arg8 harg8 arg9 harg9 arg10 harg10 arg11 harg11 hc0 hc1 x0 x1 x2 x3 xs0 xs1 xs2 xs3)]
  unfold runMiddle
  dsimp only
  try sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- A later key tile rescales the running normaliser to the new maximum and adds the row sums of its exponentials. -/
theorem leftMiddleNorm_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftMiddleNorm c i arg3 harg3 arg4 harg4 arg5 harg5 arg6 harg6 arg7 harg7 arg8 harg8 arg9 harg9 arg10 harg10 arg11 harg11 hc0 hc1 x0 x1 x2 x3 xs0 xs1 xs2 xs3 = k0_pay14 xs3 x1 x3 xs0 xs1 := by
  unfold leftMiddleNorm
  rw [View.read_writes_eq_canon _ _ _ (coverMiddleNorm c i arg3 harg3 arg4 harg4 arg5 harg5 arg6 harg6 arg7 harg7 arg8 harg8 arg9 harg9 arg10 harg10 arg11 harg11 hc0 hc1 x0 x1 x2 x3 xs0 xs1 xs2 xs3)]
  unfold runMiddle
  dsimp only
  try sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- A later key tile rescales the running weighted sum to the new maximum and adds its exponentials times the key rows. -/
theorem leftMiddleAcc_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : ¬condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftMiddleAcc c i arg3 harg3 arg4 harg4 arg5 harg5 arg6 harg6 arg7 harg7 arg8 harg8 arg9 harg9 arg10 harg10 arg11 harg11 hc0 hc1 x0 x1 x2 x3 xs0 xs1 xs2 xs3 = k0_pay1 (k0_pay9 x1) (k0_pay13 xs3 x1 x3 xs0) (k0_pay15 xs3 x1 x3 xs0 xs2) := by
  unfold leftMiddleAcc
  rw [View.read_writes_eq_canon _ _ _ (coverMiddleAcc c i arg3 harg3 arg4 harg4 arg5 harg5 arg6 harg6 arg7 harg7 arg8 harg8 arg9 harg9 arg10 harg10 arg11 harg11 hc0 hc1 x0 x1 x2 x3 xs0 xs1 xs2 xs3)]
  unfold runMiddle
  dsimp only
  try sl_unfold_words
  rw [View.canon_cons_unit_zero (S := S1024x1024) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- The last key tile updates the running maximum as any later tile does, -/
theorem leftLastMax_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftLastMax c i arg3 harg3 arg4 harg4 arg5 harg5 arg6 harg6 arg7 harg7 arg8 harg8 arg9 harg9 arg10 harg10 arg11 harg11 hc0 hc1 x0 x1 x2 x3 xs0 xs1 xs2 xs3 = k0_pay2 (k0_pay11 xs3 x1 x3 xs0) := by
  unfold leftLastMax
  rw [View.read_writes_eq_canon _ _ _ (coverLastMax c i arg3 harg3 arg4 harg4 arg5 harg5 arg6 harg6 arg7 harg7 arg8 harg8 arg9 harg9 arg10 harg10 arg11 harg11 hc0 hc1 x0 x1 x2 x3 xs0 xs1 xs2 xs3)]
  unfold runLast
  dsimp only
  try sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- the running normaliser likewise, -/
theorem leftLastNorm_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftLastNorm c i arg3 harg3 arg4 harg4 arg5 harg5 arg6 harg6 arg7 harg7 arg8 harg8 arg9 harg9 arg10 harg10 arg11 harg11 hc0 hc1 x0 x1 x2 x3 xs0 xs1 xs2 xs3 = k0_pay14 xs3 x1 x3 xs0 xs1 := by
  unfold leftLastNorm
  rw [View.read_writes_eq_canon _ _ _ (coverLastNorm c i arg3 harg3 arg4 harg4 arg5 harg5 arg6 harg6 arg7 harg7 arg8 harg8 arg9 harg9 arg10 harg10 arg11 harg11 hc0 hc1 x0 x1 x2 x3 xs0 xs1 xs2 xs3)]
  unfold runLast
  dsimp only
  try sl_unfold_words
  rw [View.canon_cons_unit_zero (S := S1024x1) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- and the running weighted sum likewise. -/
theorem leftLastAcc_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftLastAcc c i arg3 harg3 arg4 harg4 arg5 harg5 arg6 harg6 arg7 harg7 arg8 harg8 arg9 harg9 arg10 harg10 arg11 harg11 hc0 hc1 x0 x1 x2 x3 xs0 xs1 xs2 xs3 = k0_pay1 (k0_pay9 x1) (k0_pay13 xs3 x1 x3 xs0) (k0_pay15 xs3 x1 x3 xs0 xs2) := by
  unfold leftLastAcc
  rw [View.read_writes_eq_canon _ _ _ (coverLastAcc c i arg3 harg3 arg4 harg4 arg5 harg5 arg6 harg6 arg7 harg7 arg8 harg8 arg9 harg9 arg10 harg10 arg11 harg11 hc0 hc1 x0 x1 x2 x3 xs0 xs1 xs2 xs3)]
  unfold runLast
  dsimp only
  try sl_unfold_words
  rw [View.canon_cons_unit_zero (S := S1024x1024) hz2]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

/-- The last key tile then stores in the output block the weighted sum it has just stored divided by the normaliser it has just stored. -/
theorem leftLastOut_eq (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x1 .f32) (harg5 : arg5.IsWhole) (arg6 : Memref sig .tc .vmem S1x256x1 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬condFirst i) (hc1 : condLast i) (x0 : Vec F S1x1024x1024 .f32) (x1 : Vec F S1x256x1024 .f32) (x2 : Vec F S1x1024x1 .f32) (x3 : Vec F S1x256x1 .f32) (xs0 : Vec F S1024x1 .f32) (xs1 : Vec F S1024x1 .f32) (xs2 : Vec F S1024x1024 .f32) (xs3 : Vec F S1024x1024 .bf16) :
    leftLastOut c i arg3 harg3 arg4 harg4 arg5 harg5 arg6 harg6 arg7 harg7 arg8 harg8 arg9 harg9 arg10 harg10 arg11 harg11 hc0 hc1 x0 x1 x2 x3 xs0 xs1 xs2 xs3 = k0_pay3 (k0_pay1 (k0_pay9 x1) (k0_pay13 xs3 x1 x3 xs0) (k0_pay15 xs3 x1 x3 xs0 xs2)) (k0_pay14 xs3 x1 x3 xs0 xs1) := by
  unfold leftLastOut
  rw [View.read_writes_eq_canon _ _ _ (coverLastOut c i arg3 harg3 arg4 harg4 arg5 harg5 arg6 harg6 arg7 harg7 arg8 harg8 arg9 harg9 arg10 harg10 arg11 harg11 hc0 hc1 x0 x1 x2 x3 xs0 xs1 xs2 xs3)]
  unfold runLast
  dsimp only
  try sl_unfold_words
  rw [View.canon_cons_unit_zero (S := S1x1024x1024) hz3]
  simp only [View.readAt_eq_ld, harg3.read_unread, harg4.read_unread, harg5.read_unread, harg6.read_unread, harg8.read_unread, harg9.read_unread, harg10.read_unread, harg11.read_unread, View.ld_unit_zero (S := S1x1024x1024) hz3, View.ld_unit_zero (S := S1x256x1024) hz3, View.ld_unit_zero (S := S1x1024x1) hz3, View.ld_unit_zero (S := S1x256x1) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2, View.readCov_unit_zero (S := S1024x1024) arg11.view hz2] <;> rfl

end Cert.KernelIdeal.Body

end
-- ==== Proof.KernelIdealStep.lean ====
/-
  One grid point's effect on the carried state, the three cases told as one.

  Every point runs the same general step on an ENTRY state: at a first key tile the entry state is the reset one (the
  running maximum -∞, the normaliser and the weighted sum zero) with the freshly stored scaled masked query tile; at any
  other key tile it is what the point before left. The step replaces the maximum by the larger of it and the key tile's
  greatest score, rescales the normaliser and the weighted sum by the exponential of the old maximum less the new, and
  adds the key tile's exponentials (times the key rows, for the weighted sum). At the last key tile the output block is
  the weighted sum divided by the normaliser.
-/
import proofs.«108820_j20366734917932_2_alg».proof.Proof.KernelIdealPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Launch (V)

variable (m : (ℓ : Loc nD τ sig) → Buf (Elt F) ℓ)

/-- The state after a position depends on the position only. -/
theorem stateAt_congr (c : Dev nD) {n n' : ℕ} (e : n = n') (h : n < cfg0.N) (h' : n' < cfg0.N) : stateAt m c n h = stateAt m c n' h' := by
  subst e; rfl

/-- The state a point's general step runs on. -/
def entryQ (c : Dev nD) (t : Fin cfg0.N) : Vec F S1024x1024 .bf16 :=
  if t.val % 8 = 0 then k0_pay7 (iblk m c 0 t) (iblk m c 2 t) else (stateAt m c (t.val - 1) (Nat.lt_of_le_of_lt (Nat.sub_le _ _) t.isLt)).q
def entryMax (c : Dev nD) (t : Fin cfg0.N) : Vec F S1024x1 .f32 :=
  if t.val % 8 = 0 then k0_pay4 (F := F) else (stateAt m c (t.val - 1) (Nat.lt_of_le_of_lt (Nat.sub_le _ _) t.isLt)).mx
def entryNorm (c : Dev nD) (t : Fin cfg0.N) : Vec F S1024x1 .f32 :=
  if t.val % 8 = 0 then k0_pay5 (F := F) else (stateAt m c (t.val - 1) (Nat.lt_of_le_of_lt (Nat.sub_le _ _) t.isLt)).nm
def entryAcc (c : Dev nD) (t : Fin cfg0.N) : Vec F S1024x1024 .f32 :=
  if t.val % 8 = 0 then k0_pay6 (F := F) else (stateAt m c (t.val - 1) (Nat.lt_of_le_of_lt (Nat.sub_le _ _) t.isLt)).acc

/-- THE STEP: what a point leaves in the four scratch buffers, from its entry state and its key blocks. -/
theorem state_step (c : Dev nD) (t : Fin cfg0.N) :
    (stateAt m c t.val t.isLt).q = entryQ m c t
    ∧ (stateAt m c t.val t.isLt).mx = k0_pay2 (k0_pay11 (entryQ m c t) (iblk m c 1 t) (iblk m c 3 t) (entryMax m c t))
    ∧ (stateAt m c t.val t.isLt).nm = k0_pay14 (entryQ m c t) (iblk m c 1 t) (iblk m c 3 t) (entryMax m c t) (entryNorm m c t)
    ∧ (stateAt m c t.val t.isLt).acc = k0_pay1 (k0_pay9 (iblk m c 1 t)) (k0_pay13 (entryQ m c t) (iblk m c 1 t) (iblk m c 3 t) (entryMax m c t)) (k0_pay15 (entryQ m c t) (iblk m c 1 t) (iblk m c 3 t) (entryMax m c t) (entryAcc m c t)) := by
  have hN : t.val < 128 := lt_of_lt_of_eq t.isLt (show cfg0.N = 128 from N_0)
  by_cases h0 : t.val % 8 = 0
  · have h1 : ¬t.val % 8 = 7 := by omega
    rw [stateAt_first m c t h0 h1]
    unfold entryQ entryMax entryNorm entryAcc
    simp only [if_pos h0]
    exact ⟨leftFirstQ_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstMax_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstNorm_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t), leftFirstAcc_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) ((hcondFirst t).mpr h0) (fun h => h1 ((hcondLast t).mp h)) (iblk m c 0 t) (iblk m c 1 t) (iblk m c 2 t) (iblk m c 3 t)⟩
  · by_cases h1 : t.val % 8 = 7
    · rw [stateAt_last m c t h0 h1]
      unfold entryQ entryMax entryNorm entryAcc
      simp only [if_neg h0]
      exact ⟨trivial, leftLastMax_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastNorm_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastAcc_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q⟩
    · rw [stateAt_middle m c t h0 h1]
      unfold entryQ entryMax entryNorm entryAcc
      simp only [if_neg h0]
      exact ⟨trivial, leftMiddleMax_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftMiddleNorm_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftMiddleAcc_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) (fun h => h1 ((hcondLast t).mp h)) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q⟩

/-- At a last key tile the output block is the weighted sum just stored divided by the normaliser just stored. -/
theorem state_out (c : Dev nD) (t : Fin cfg0.N) (h1 : t.val % 8 = 7) :
    (stateAt m c t.val t.isLt).out = k0_pay3 (stateAt m c t.val t.isLt).acc (stateAt m c t.val t.isLt).nm := by
  have h0 : ¬t.val % 8 = 0 := by omega
  rw [stateAt_last m c t h0 h1]
  dsimp only
  rw [leftLastOut_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastAcc_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q, leftLastNorm_eq c (grid0.coords t) (ms0 t) (hs0 t) (ms1 t) (hs1 t) (ms2 t) (hs2 t) (ms3 t) (hs3 t) (ms4 t) (hs4 t) scMax (Memref.isWhole_whole _) scNorm (Memref.isWhole_whole _) scAcc (Memref.isWhole_whole _) scQ (Memref.isWhole_whole _) (fun h => h0 ((hcondFirst t).mp h)) ((hcondLast t).mpr h1) (iblk m c 0 t) (iblk m c 1 t) (iblk m c 2 t) (iblk m c 3 t) (stateAt m c (t.val - 1) (Nat.lt_of_le_of_lt (Nat.sub_le _ _) t.isLt)).mx (stateAt m c (t.val - 1) (Nat.lt_of_le_of_lt (Nat.sub_le _ _) t.isLt)).nm (stateAt m c (t.val - 1) (Nat.lt_of_le_of_lt (Nat.sub_le _ _) t.isLt)).acc (stateAt m c (t.val - 1) (Nat.lt_of_le_of_lt (Nat.sub_le _ _) t.isLt)).q]

end Cert.KernelIdeal.Body

end
-- ==== Proof.Spec.lean ====
/-
  The function both programs compute, on the extended reals.

  For a batch of sequences `x b s h` (8 sequences of 2048 rows of 1024 numbers) and a row mask `μ b s`, the masked
  rows are `x b s h * μ b s`; the score of query row `q` against key row `k` is the inner product of the two masked
  rows, scaled by `1/32` (the reciprocal of the square root of the row length 1024); each query's scores are turned
  into weights by the softmax — the exponential of the score less the row's greatest score, divided by the sum of those
  exponentials over all keys —; and the result at `(b, q, h)` is the weighted sum over the keys `k` of the UNMASKED
  entries `x b k h`.
-/
import Idealize.ShloMosaic.PureOps.Ideal

noncomputable section

namespace Cert.Attn

open Idealize.ShloMosaic

/-- A row of `x` with its mask entry multiplied in. -/
def masked (x : Fin 8 → Fin 2048 → Fin 1024 → EReal) (μ : Fin 8 → Fin 2048 → EReal) (b : Fin 8) (s : Fin 2048) (h : Fin 1024) : EReal :=
  x b s h * μ b s

/-- The scale: the reciprocal of the square root of the row length, `1/√1024 = 1/32`. -/
def scale : EReal := ((1 / 32 : ℝ) : EReal)

/-- The scaled score of query row `q` against key row `k`: the inner product of the two masked rows, times `1/32`. -/
def score (x : Fin 8 → Fin 2048 → Fin 1024 → EReal) (μ : Fin 8 → Fin 2048 → EReal) (b : Fin 8) (q k : Fin 2048) : EReal :=
  (∑ h : Fin 1024, masked x μ b q h * masked x μ b k h) * scale

/-- The greatest score of query row `q` over all keys. -/
def rowMax (x : Fin 8 → Fin 2048 → Fin 1024 → EReal) (μ : Fin 8 → Fin 2048 → EReal) (b : Fin 8) (q : Fin 2048) : EReal :=
  Finset.univ.sup fun k : Fin 2048 => score x μ b q k

/-- The unnormalised weight of key `k` for query `q`: the exponential of the score less the row's greatest. -/
def weight (x : Fin 8 → Fin 2048 → Fin 1024 → EReal) (μ : Fin 8 → Fin 2048 → EReal) (b : Fin 8) (q k : Fin 2048) : EReal :=
  Ideal.exp (score x μ b q k - rowMax x μ b q)

/-- The normaliser of query `q`: the sum of its weights over all keys. -/
def normaliser (x : Fin 8 → Fin 2048 → Fin 1024 → EReal) (μ : Fin 8 → Fin 2048 → EReal) (b : Fin 8) (q : Fin 2048) : EReal :=
  ∑ k : Fin 2048, weight x μ b q k

/-- The attention output: the softmax-weighted sum of the unmasked rows. -/
def attn (x : Fin 8 → Fin 2048 → Fin 1024 → EReal) (μ : Fin 8 → Fin 2048 → EReal) (b : Fin 8) (q : Fin 2048) (h : Fin 1024) : EReal :=
  ∑ k : Fin 2048, Ideal.div (weight x μ b q k) (normaliser x μ b q) * x b k h

end Cert.Attn

end
-- ==== Proof.KernelIdealPay.lean ====
/-
  The kernel body's arithmetic read at an index, at the extended reals.

  The body works on a tile of 1024 query rows against a tile of 256 key rows, both of 1024 features. Its values are:
  the scaled masked queries x0 * (x2 * 1/32); the scores, the products of the scaled masked query rows with the masked
  key rows; the running maximum of each query row's scores; the factor exp (old maximum - new maximum) that rescales
  what was accumulated under the old maximum; the exponentials of the scores less the new maximum; the running sum of
  those; the rescaled accumulator; the accumulator plus the product of the exponentials with the unmasked key rows; and
  at the end the accumulator divided by the running sum. Each is read here at an index given by literal coordinates.
-/
import proofs.«108820_j20366734917932_2_alg».proof.Proof.Gen.KernelIdeal.Skeleton
import proofs.«108820_j20366734917932_2_alg».proof.Proof.Spec
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

noncomputable section

namespace Cert.KernelIdeal.Pay

open Cert.KernelIdeal Cert.KernelIdeal.Gen Idealize.ShloMosaic Idealize.ShloMosaic.ValueIdx

/-! ## The constants -/

/-- The scale as the kernel writes it: the word 0x3D000000. -/
abbrev c32 : EReal := Ideal.ofBits .f32 0x3D000000#32

/-- The word 0x3D000000 denotes 1/32. -/
theorem c32_eq : c32 = ((1 / 32 : ℝ) : EReal) := by
  simp [c32, Ideal.ofBits, Ideal.ieee, -EReal.coe_mul]; norm_num

/-- It is the scale of the specification. -/
theorem c32_eq_scale : c32 = Cert.Attn.scale := c32_eq

/-- The word 0xFF800000 denotes -∞, the least extended real. -/
theorem ofBits_negInf : Ideal.ofBits .f32 0xFF800000#32 = (⊥ : EReal) := by
  simp [Ideal.ofBits, Ideal.ieee]

/-- Folding max from the least element over a finite set gives the set's supremum: both are the least upper bound of
    the values. -/
theorem fold_max_bot {ι : Type*} (s : Finset ι) (f : ι → EReal) : s.fold max ⊥ f = s.sup f := by
  refine le_antisymm ?_ ?_
  · exact (Finset.fold_max_le _).2 ⟨bot_le, fun x hx => Finset.le_sup hx⟩
  · exact Finset.sup_le fun x hx => (Finset.le_fold_max _).2 (Or.inr ⟨x, hx, le_rfl⟩)

/-! ## Columns: a column broadcast along its rows, a vector cast to a column -/

section Layout
variable {α : Type}

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## A row's maximum and a row's sum -/

/-- The index of row r with the column k put back on the reduced axis is (r, k). -/
theorem lift_row (hr : S1024x256.Reduces [1] S1024) (r : Fin 1024) (k : Fin 256) : hr.lift (ix1 r) k = ix2 r k := by
  funext c; apply Fin.ext
  match c with
  | ⟨0, _⟩ => rfl
  | ⟨1, _⟩ => rfl

/-- A row's maximum taken from -∞ is the supremum of the row. -/
theorem rowMax_at (src : FVec Ideal S1024x256 .f32) (hr : S1024x256.Reduces [1] S1024) (hφ : FKind.Formats .f32)
    (hacc : (0xFF800000#32 : BitVec (FTy.bits .f32)) = FKind.maximumf.neutral .f32 hφ) (r : Fin 1024) :
    multiReduction (F := Ideal) .maximumf [1] S1024 src 0xFF800000#32 hr hφ hacc (ix1 r)
      = Finset.univ.sup fun j : Fin 256 => src (ix2 r j) := by
  refine (Ideal.multiReduction_maximumf_single src _ hr hφ hacc (ix1 r)).trans ?_
  show Finset.fold max (Ideal.ofBits .f32 0xFF800000#32) (fun k : Fin 256 => src (hr.lift (ix1 r) k)) Finset.univ = _
  rw [ofBits_negInf, fold_max_bot]
  exact Finset.sup_congr rfl fun k _ => congrArg src (lift_row hr r k)

/-- A row's sum. -/
theorem rowSum_at (src : FVec Ideal S1024x256 .f32) (hr : S1024x256.Reduces [1] S1024) (hφ : FKind.Formats .f32)
    (hacc : (0x00000000#32 : BitVec (FTy.bits .f32)) = FKind.add.neutral .f32 hφ) (r : Fin 1024) :
    multiReduction (F := Ideal) .add [1] S1024 src 0x00000000#32 hr hφ hacc (ix1 r) = ∑ j : Fin 256, src (ix2 r j) := by
  refine (Ideal.multiReduction_add_single src _ hr hφ hacc (ix1 r)).trans ?_
  show ∑ k : Fin 256, src (hr.lift (ix1 r) k) = _
  exact Finset.sum_congr rfl fun k _ => congrArg src (lift_row hr r k)

/-! ## The two matrix products -/

/-- Query rows against key rows laid as columns: at (r, j) the sum over the features. -/
theorem matmul_scores_apply (lhs : FVec Ideal S1024x1024 .bf16) (rhs : FVec Ideal S1024x256 .bf16) (r : Fin 1024) (j : Fin 256) :
    matmul (F := Ideal) dot_S1024x1024_S1024x256_S1024x256_1_0_0_1_n_n none lhs rhs (constant S1024x256 .f32 0x00000000#32) (ix2 r j)
      = ∑ h : Fin 1024, lhs (ix2 r h) * rhs (ix2 h j) := by
  have l0 : ∀ q : dot_S1024x1024_S1024x256_S1024x256_1_0_0_1_n_n.contr.Idx, (dot_S1024x1024_S1024x256_S1024x256_1_0_0_1_n_n.lhsIdx (ix2 r j) q 0).val = ((ix2 r j) 0).val := fun q => by
    unfold DotDims.lhsIdx
    rw [dif_neg (show ¬(0 : Fin S1024x1024.rank) ∈ dot_S1024x1024_S1024x256_S1024x256_1_0_0_1_n_n.lhsBatch by decide),
      dif_pos (show (0 : Fin S1024x1024.rank) ∈ dot_S1024x1024_S1024x256_S1024x256_1_0_0_1_n_n.lhsNonContracting by decide)]
    rfl
  have l1 : ∀ q : dot_S1024x1024_S1024x256_S1024x256_1_0_0_1_n_n.contr.Idx, (dot_S1024x1024_S1024x256_S1024x256_1_0_0_1_n_n.lhsIdx (ix2 r j) q 1).val = (q ⟨0, by decide⟩).val := fun q =>
    dot_S1024x1024_S1024x256_S1024x256_1_0_0_1_n_n.lhsIdx_val_of_single rfl (ix2 r j) q
  have r0 : ∀ q : dot_S1024x1024_S1024x256_S1024x256_1_0_0_1_n_n.contr.Idx, (dot_S1024x1024_S1024x256_S1024x256_1_0_0_1_n_n.rhsIdx (ix2 r j) q 0).val = (q ⟨0, by decide⟩).val := fun q =>
    dot_S1024x1024_S1024x256_S1024x256_1_0_0_1_n_n.rhsIdx_val_of_single rfl (ix2 r j) q
  have r1 : ∀ q : dot_S1024x1024_S1024x256_S1024x256_1_0_0_1_n_n.contr.Idx, (dot_S1024x1024_S1024x256_S1024x256_1_0_0_1_n_n.rhsIdx (ix2 r j) q 1).val = ((ix2 r j) 1).val := fun q => by
    unfold DotDims.rhsIdx
    rw [dif_neg (show ¬(1 : Fin S1024x256.rank) ∈ dot_S1024x1024_S1024x256_S1024x256_1_0_0_1_n_n.rhsBatch by decide),
      dif_pos (show (1 : Fin S1024x256.rank) ∈ dot_S1024x1024_S1024x256_S1024x256_1_0_0_1_n_n.rhsNonContracting by decide)]
    rfl
  refine (Ideal.matmul_constant_zero_apply _ _ lhs rhs (ix2 r j)).trans ?_
  refine (Equiv.sum_comp (contrEquiv1 dot_S1024x1024_S1024x256_S1024x256_1_0_0_1_n_n 1024 rfl rfl).symm _).symm.trans ?_
  refine Finset.sum_congr rfl fun h _ => ?_
  have hk := contrEquiv1_symm_val dot_S1024x1024_S1024x256_S1024x256_1_0_0_1_n_n 1024 rfl rfl h
  have el : dot_S1024x1024_S1024x256_S1024x256_1_0_0_1_n_n.lhsIdx (ix2 r j) ((contrEquiv1 dot_S1024x1024_S1024x256_S1024x256_1_0_0_1_n_n 1024 rfl rfl).symm h) = (ix2 r h) :=
    funext fun a => Fin.ext (by
      match a with
      | ⟨0, _⟩ => exact l0 _
      | ⟨1, _⟩ => exact (l1 _).trans hk)
  have er : dot_S1024x1024_S1024x256_S1024x256_1_0_0_1_n_n.rhsIdx (ix2 r j) ((contrEquiv1 dot_S1024x1024_S1024x256_S1024x256_1_0_0_1_n_n 1024 rfl rfl).symm h) = (ix2 h j) :=
    funext fun a => Fin.ext (by
      match a with
      | ⟨0, _⟩ => exact (r0 _).trans hk
      | ⟨1, _⟩ => exact r1 _)
  rw [el, er]

/-- Weights against the key tile's rows: at (r, h) the sum over the key rows. -/
theorem matmul_values_apply (lhs : FVec Ideal S1024x256 .bf16) (rhs : FVec Ideal S256x1024 .bf16) (r h : Fin 1024) :
    matmul (F := Ideal) dot_S1024x256_S256x1024_S1024x1024_1_0_0_1_n_n none lhs rhs (constant S1024x1024 .f32 0x00000000#32) (ix2 r h)
      = ∑ j : Fin 256, lhs (ix2 r j) * rhs (ix2 j h) := by
  have l0 : ∀ q : dot_S1024x256_S256x1024_S1024x1024_1_0_0_1_n_n.contr.Idx, (dot_S1024x256_S256x1024_S1024x1024_1_0_0_1_n_n.lhsIdx (ix2 r h) q 0).val = ((ix2 r h) 0).val := fun q => by
    unfold DotDims.lhsIdx
    rw [dif_neg (show ¬(0 : Fin S1024x256.rank) ∈ dot_S1024x256_S256x1024_S1024x1024_1_0_0_1_n_n.lhsBatch by decide),
      dif_pos (show (0 : Fin S1024x256.rank) ∈ dot_S1024x256_S256x1024_S1024x1024_1_0_0_1_n_n.lhsNonContracting by decide)]
    rfl
  have l1 : ∀ q : dot_S1024x256_S256x1024_S1024x1024_1_0_0_1_n_n.contr.Idx, (dot_S1024x256_S256x1024_S1024x1024_1_0_0_1_n_n.lhsIdx (ix2 r h) q 1).val = (q ⟨0, by decide⟩).val := fun q =>
    dot_S1024x256_S256x1024_S1024x1024_1_0_0_1_n_n.lhsIdx_val_of_single rfl (ix2 r h) q
  have r0 : ∀ q : dot_S1024x256_S256x1024_S1024x1024_1_0_0_1_n_n.contr.Idx, (dot_S1024x256_S256x1024_S1024x1024_1_0_0_1_n_n.rhsIdx (ix2 r h) q 0).val = (q ⟨0, by decide⟩).val := fun q =>
    dot_S1024x256_S256x1024_S1024x1024_1_0_0_1_n_n.rhsIdx_val_of_single rfl (ix2 r h) q
  have r1 : ∀ q : dot_S1024x256_S256x1024_S1024x1024_1_0_0_1_n_n.contr.Idx, (dot_S1024x256_S256x1024_S1024x1024_1_0_0_1_n_n.rhsIdx (ix2 r h) q 1).val = ((ix2 r h) 1).val := fun q => by
    unfold DotDims.rhsIdx
    rw [dif_neg (show ¬(1 : Fin S256x1024.rank) ∈ dot_S1024x256_S256x1024_S1024x1024_1_0_0_1_n_n.rhsBatch by decide),
      dif_pos (show (1 : Fin S256x1024.rank) ∈ dot_S1024x256_S256x1024_S1024x1024_1_0_0_1_n_n.rhsNonContracting by decide)]
    rfl
  refine (Ideal.matmul_constant_zero_apply _ _ lhs rhs (ix2 r h)).trans ?_
  refine (Equiv.sum_comp (contrEquiv1 dot_S1024x256_S256x1024_S1024x1024_1_0_0_1_n_n 256 rfl rfl).symm _).symm.trans ?_
  refine Finset.sum_congr rfl fun j _ => ?_
  have hk := contrEquiv1_symm_val dot_S1024x256_S256x1024_S1024x1024_1_0_0_1_n_n 256 rfl rfl j
  have el : dot_S1024x256_S256x1024_S1024x1024_1_0_0_1_n_n.lhsIdx (ix2 r h) ((contrEquiv1 dot_S1024x256_S256x1024_S1024x1024_1_0_0_1_n_n 256 rfl rfl).symm j) = (ix2 r j) :=
    funext fun a => Fin.ext (by
      match a with
      | ⟨0, _⟩ => exact l0 _
      | ⟨1, _⟩ => exact (l1 _).trans hk)
  have er : dot_S1024x256_S256x1024_S1024x1024_1_0_0_1_n_n.rhsIdx (ix2 r h) ((contrEquiv1 dot_S1024x256_S256x1024_S1024x1024_1_0_0_1_n_n 256 rfl rfl).symm j) = (ix2 j h) :=
    funext fun a => Fin.ext (by
      match a with
      | ⟨0, _⟩ => exact (r0 _).trans hk
      | ⟨1, _⟩ => exact r1 _)
  rw [el, er]

/-! ## The payloads at an index -/

/-- The tile's initial running maximum is -∞ everywhere. -/
theorem pay4_eq : k0_pay4 (F := Ideal) = fun _ => (⊥ : EReal) := by
  unfold k0_pay4
  refine (shapeCast_self _ _).trans ?_
  funext i
  exact ofBits_negInf

/-- The tile's initial running sum is zero everywhere. -/
theorem pay5_eq : k0_pay5 (F := Ideal) = fun _ => (0 : EReal) := by
  unfold k0_pay5
  refine (shapeCast_self _ _).trans ?_
  funext i
  exact Ideal.ofBits_zero_f32

/-- The tile's initial accumulator is zero everywhere. -/
theorem pay6_eq : k0_pay6 (F := Ideal) = fun _ => (0 : EReal) := by
  unfold k0_pay6
  refine (shapeCast_self _ _).trans ?_
  funext i
  exact Ideal.ofBits_zero_f32

/-- The running maximum is written back as it is. -/
theorem pay2_eq {F : FTy → Type} [FloatOps F] (v17 : FVec F S1024x1 .f32) : k0_pay2 v17 = v17 := by
  unfold k0_pay2
  exact shapeCast_self _ _

/-- The scaled masked queries. -/
theorem pay7_at (x0 : Vec Ideal S1x1024x1024 .f32) (x2 : Vec Ideal S1x1024x1 .f32) (r h : Fin 1024) :
    k0_pay7 (F := Ideal) x0 x2 (ix2 r h) = x0 (ix3 0 r h) * (x2 (ix3 0 r 0) * c32) := by
  unfold k0_pay7
  refine (congrFun (shapeCast_self _ _) (ix2 r h)).trans ?_
  show (shapeCast S1024x1024 x0 _ (ix2 r h) : EReal)
      * (broadcastTo S1024x1024 (mulf (F := Ideal) (φ := .f32) (shapeCast S1024x1 x2 _)
          (broadcast S1024x1 (Scalar.ofBits (F := Ideal) .f32 0x3D000000#32))) _ (ix2 r h) : EReal) = _
  refine congrArg₂ (· * ·) (shapeCast_1ab_ab_apply x0 _ r h) ?_
  refine (broadcastTo_a1_ab_apply _ _ r h).trans ?_
  show (shapeCast S1024x1 x2 _ (ix2 r 0) : EReal) * c32 = _
  exact congrArg (· * c32) (shapeCast_1ab_ab_apply x2 _ r 0)

/-- The key tile without its leading unit axis. -/
theorem pay8_at (xkv : Vec Ideal S1x256x1024 .f32) (j : Fin 256) (h : Fin 1024) :
    k0_pay8 (F := Ideal) xkv (ix2 j h) = xkv (ix3 0 j h) := by
  unfold k0_pay8
  exact shapeCast_1ab_ab_apply xkv _ j h

/-- The same, as the second product's right operand. -/
theorem pay9_at (xkv : Vec Ideal S1x256x1024 .f32) (j : Fin 256) (h : Fin 1024) :
    k0_pay9 (F := Ideal) xkv (ix2 j h) = xkv (ix3 0 j h) := by
  unfold k0_pay9
  exact pay8_at xkv j h

variable (qs : Vec Ideal S1024x1024 .bf16) (xkv : Vec Ideal S1x256x1024 .f32) (mk : Vec Ideal S1x256x1 .f32)
  (mx : Vec Ideal S1024x1 .f32)

/-- The scores of the tile's queries against the tile's masked keys. -/
theorem pay10_at (r : Fin 1024) (j : Fin 256) :
    k0_pay10 (F := Ideal) qs xkv mk (ix2 r j) = ∑ h : Fin 1024, qs (ix2 r h) * (xkv (ix3 0 j h) * mk (ix3 0 j 0)) := by
  unfold k0_pay10
  refine (matmul_scores_apply _ _ r j).trans ?_
  refine Finset.sum_congr rfl fun h _ => congrArg (qs (ix2 r h) * ·) ?_
  refine (transpose_ix2_apply _ _ h j).trans ?_
  show k0_pay8 (F := Ideal) xkv (ix2 j h) * broadcastTo S256x1024 (shapeCast S256x1 mk _) _ (ix2 j h) = _
  refine congrArg₂ (· * ·) (pay8_at xkv j h) ?_
  exact (broadcastTo_a1_ab_apply _ _ j h).trans (shapeCast_1ab_ab_apply mk _ j 0)

/-- The new running maximum: the old one against the greatest score of the row in this key tile. -/
theorem pay11_at (r : Fin 1024) :
    k0_pay11 (F := Ideal) qs xkv mk mx (ix2 r 0)
      = max (mx (ix2 r 0)) (Finset.univ.sup fun j : Fin 256 => k0_pay10 (F := Ideal) qs xkv mk (ix2 r j)) := by
  unfold k0_pay11
  refine (maximumf_apply (s := S1024x1) (φ := .f32) mx _ (ix2 r 0)).trans ?_
  refine congrArg (max (mx (ix2 r 0))) ?_
  refine (shapeCast_a_a1_apply _ _ r 0).trans ?_
  exact rowMax_at _ _ _ _ r

/-- The factor that rescales what was accumulated under the old maximum. -/
theorem pay12_at (r : Fin 1024) :
    k0_pay12 (F := Ideal) qs xkv mk mx (ix2 r 0)
      = Ideal.exp (mx (ix2 r 0) - k0_pay11 (F := Ideal) qs xkv mk mx (ix2 r 0)) := rfl

/-- The exponentials of the scores less the new maximum. -/
theorem pay13_at (r : Fin 1024) (j : Fin 256) :
    k0_pay13 (F := Ideal) qs xkv mk mx (ix2 r j)
      = Ideal.exp (k0_pay10 (F := Ideal) qs xkv mk (ix2 r j) - k0_pay11 (F := Ideal) qs xkv mk mx (ix2 r 0)) := by
  unfold k0_pay13
  show Ideal.exp (k0_pay10 (F := Ideal) qs xkv mk (ix2 r j)
      - broadcastTo S1024x256 (k0_pay11 (F := Ideal) qs xkv mk mx) _ (ix2 r j)) = _
  exact congrArg (fun t => Ideal.exp (k0_pay10 (F := Ideal) qs xkv mk (ix2 r j) - t)) (broadcastTo_a1_ab_apply _ _ r j)

/-- The new running sum: the old one rescaled, plus the row's exponentials. -/
theorem pay14_at (nm : Vec Ideal S1024x1 .f32) (r : Fin 1024) :
    k0_pay14 (F := Ideal) qs xkv mk mx nm (ix2 r 0)
      = k0_pay12 (F := Ideal) qs xkv mk mx (ix2 r 0) * nm (ix2 r 0)
        + ∑ j : Fin 256, k0_pay13 (F := Ideal) qs xkv mk mx (ix2 r j) := by
  unfold k0_pay14
  refine (congrFun (shapeCast_self _ _) (ix2 r 0)).trans ?_
  show k0_pay12 (F := Ideal) qs xkv mk mx (ix2 r 0) * nm (ix2 r 0)
      + shapeCast S1024x1 (multiReduction (F := Ideal) .add [1] S1024 (k0_pay13 (F := Ideal) qs xkv mk mx) 0x00000000#32 _ _ _) _ (ix2 r 0) = _
  refine congrArg (k0_pay12 (F := Ideal) qs xkv mk mx (ix2 r 0) * nm (ix2 r 0) + ·) ?_
  refine (shapeCast_a_a1_apply _ _ r 0).trans ?_
  exact rowSum_at _ _ _ _ r

/-- The accumulator rescaled. -/
theorem pay15_at (acc : Vec Ideal S1024x1024 .f32) (r h : Fin 1024) :
    k0_pay15 (F := Ideal) qs xkv mk mx acc (ix2 r h)
      = k0_pay12 (F := Ideal) qs xkv mk mx (ix2 r 0) * acc (ix2 r h) := by
  unfold k0_pay15
  show broadcastTo S1024x1024 (k0_pay12 (F := Ideal) qs xkv mk mx) _ (ix2 r h) * acc (ix2 r h) = _
  exact congrArg (· * acc (ix2 r h)) (broadcastTo_a1_ab_apply _ _ r h)

/-- The accumulator plus the exponentials times the unmasked key rows. -/
theorem pay1_at (v11 : FVec Ideal S256x1024 .bf16) (v22 : FVec Ideal S1024x256 .f32) (v33 : FVec Ideal S1024x1024 .f32)
    (r h : Fin 1024) :
    k0_pay1 (F := Ideal) v11 v22 v33 (ix2 r h) = v33 (ix2 r h) + ∑ j : Fin 256, v22 (ix2 r j) * v11 (ix2 j h) := by
  unfold k0_pay1
  refine (congrFun (shapeCast_self _ _) (ix2 r h)).trans ?_
  show v33 (ix2 r h) + matmul (F := Ideal) dot_S1024x256_S256x1024_S1024x1024_1_0_0_1_n_n none
      (truncf .bf16 v22 _) v11 (constant S1024x1024 .f32 0x00000000#32) (ix2 r h) = _
  exact congrArg (v33 (ix2 r h) + ·) (matmul_values_apply _ v11 r h)

/-- The result: the accumulator divided by the running sum. -/
theorem pay3_at (acc : Vec Ideal S1024x1024 .f32) (nm : Vec Ideal S1024x1 .f32) (r h : Fin 1024) :
    k0_pay3 (F := Ideal) acc nm (ix3 0 r h) = Ideal.div (acc (ix2 r h)) (nm (ix2 r 0)) := by
  unfold k0_pay3
  refine (shapeCast_ab_1ab_apply _ _ 0 r h).trans ?_
  show Ideal.div (acc (ix2 r h)) (broadcastTo S1024x1024 nm _ (ix2 r h)) = _
  exact congrArg (Ideal.div (acc (ix2 r h))) (broadcastTo_a1_ab_apply _ _ r h)

end Cert.KernelIdeal.Pay

end
-- ==== Proof.KernelIdealBlocks.lean ====
/-
  Each window's block at a grid point, as entries of the two argument arrays.

  Point `t` of the grid works on sequence `t / 16`, query tile `(t / 8) mod 2` (rows `1024·qi … 1024·qi + 1023`) and key
  tile `t mod 8` (rows `256·ki … 256·ki + 255`). The query windows (0: the rows, 2: their mask entries) follow the query
  tile; the key windows (1 and 3) follow the key tile; the output window follows the query tile. The mask windows read
  the reshape of the mask to a column, whose entry `(b, s, 0)` is the mask's entry `(b, s)`.
-/
import proofs.«108820_j20366734917932_2_alg».proof.Proof.KernelIdealFrame
import Idealize.ShloMosaic.Lib.ValueIdx
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Launch (V)
open Idealize.ShloMosaic.ValueIdx

variable (m : (ℓ : Loc nD τ sig) → Buf (Elt F) ℓ)

/-! ## The index maps over the grid -/

theorem index0 : ∀ t : Fin cfg0.N, win0_0.index t 0 = t.val / 16 ∧ win0_0.index t 1 = t.val / 8 % 2 ∧ win0_0.index t 2 = 0 :=
  (by decide +kernel : ∀ t : Fin grid0.N, win0_0.index t 0 = t.val / 16 ∧ win0_0.index t 1 = t.val / 8 % 2 ∧ win0_0.index t 2 = 0)
theorem index1 : ∀ t : Fin cfg0.N, win0_1.index t 0 = t.val / 16 ∧ win0_1.index t 1 = t.val % 8 ∧ win0_1.index t 2 = 0 :=
  (by decide +kernel : ∀ t : Fin grid0.N, win0_1.index t 0 = t.val / 16 ∧ win0_1.index t 1 = t.val % 8 ∧ win0_1.index t 2 = 0)
theorem index2 : ∀ t : Fin cfg0.N, win0_2.index t 0 = t.val / 16 ∧ win0_2.index t 1 = t.val / 8 % 2 ∧ win0_2.index t 2 = 0 :=
  (by decide +kernel : ∀ t : Fin grid0.N, win0_2.index t 0 = t.val / 16 ∧ win0_2.index t 1 = t.val / 8 % 2 ∧ win0_2.index t 2 = 0)
theorem index3 : ∀ t : Fin cfg0.N, win0_3.index t 0 = t.val / 16 ∧ win0_3.index t 1 = t.val % 8 ∧ win0_3.index t 2 = 0 :=
  (by decide +kernel : ∀ t : Fin grid0.N, win0_3.index t 0 = t.val / 16 ∧ win0_3.index t 1 = t.val % 8 ∧ win0_3.index t 2 = 0)
theorem index4 : ∀ t : Fin cfg0.N, win0_4.index t 0 = t.val / 16 ∧ win0_4.index t 1 = t.val / 8 % 2 ∧ win0_4.index t 2 = 0 :=
  (by decide +kernel : ∀ t : Fin grid0.N, win0_4.index t 0 = t.val / 16 ∧ win0_4.index t 1 = t.val / 8 % 2 ∧ win0_4.index t 2 = 0)

/-! ## The reshaped mask -/

/-- The region finds `main_v0` holding the mask reshaped to a column. -/
theorem V_main_v0 (c : Dev nD) :
    (V m c main_v0 : S8x2048x1.Idx → Elt F .f32)
      = shapeCast S8x2048x1 (m ((c : Thread nD τ).loc main_arg1) : S8x2048.Idx → Elt F .f32) shapeCasts_S8x2048_S8x2048x1 := by
  dsimp only [V, hostOps0]; after_results; rfl

/-- Its entry `(b, s, 0)` is the mask's entry `(b, s)`. -/
theorem V_main_v0_at (c : Dev nD) (k : S8x2048x1.Idx) (j : S8x2048.Idx) (h0 : (j 0).val = (k 0).val) (h1 : (j 1).val = (k 1).val) :
    (V m c main_v0 : S8x2048x1.Idx → Elt F .f32) k = (m ((c : Thread nD τ).loc main_arg1) : S8x2048.Idx → Elt F .f32) j := by
  rw [V_main_v0]
  refine shapeCast_apply _ _ k j ?_
  rw [Shape.rowMajor_val_two, Shape.rowMajor_val_three]
  have : (k 2).val = 0 := by have := (k 2).isLt; simp at this; omega
  simp only [h0, h1, this]
  show (k 0).val * 2048 + (k 1).val = ((k 0).val * 2048 + (k 1).val) * 1 + 0
  omega

/-! ## The input blocks -/

/-- The query tile's rows: window 0's block at `t`. -/
theorem iblk0_at (c : Dev nD) (t : Fin cfg0.N) (y : S1x1024x1024.Idx) (k : S8x2048x1024.Idx)
    (hk0 : (k 0).val = t.val / 16) (hk1 : (k 1).val = 1024 * (t.val / 8 % 2) + (y 1).val) (hk2 : (k 2).val = (y 2).val) :
    (iblk m c 0 t : Vec F S1x1024x1024 .f32) y = (m ((c : Thread nD τ).loc main_arg0) : S8x2048x1024.Idx → Elt F .f32) k := by
  obtain ⟨i0, i1, i2⟩ := index0 t
  have y0 : (y 0).val = 0 := by have := (y 0).isLt; simp at this; omega
  unfold iblk
  rw [View.read_apply]
  show V m c main_arg0 _ = m (c.tc.loc main_arg0) _
  rw [Launch.V_main_arg0 m c]
  congr 1
  funext a
  apply Fin.ext
  match a with
  | ⟨0, _⟩ => show win0_0.index t 0 * 1 + 1 * (y 0).val = (k 0).val; rw [i0, hk0, y0]; omega
  | ⟨1, _⟩ => show win0_0.index t 1 * 1024 + 1 * (y 1).val = (k 1).val; rw [i1, hk1]; omega
  | ⟨2, _⟩ => show win0_0.index t 2 * 1024 + 1 * (y 2).val = (k 2).val; rw [i2, hk2]; omega

/-- The key tile's rows: window 1's block at `t`. -/
theorem iblk1_at (c : Dev nD) (t : Fin cfg0.N) (y : S1x256x1024.Idx) (k : S8x2048x1024.Idx)
    (hk0 : (k 0).val = t.val / 16) (hk1 : (k 1).val = 256 * (t.val % 8) + (y 1).val) (hk2 : (k 2).val = (y 2).val) :
    (iblk m c 1 t : Vec F S1x256x1024 .f32) y = (m ((c : Thread nD τ).loc main_arg0) : S8x2048x1024.Idx → Elt F .f32) k := by
  obtain ⟨i0, i1, i2⟩ := index1 t
  have y0 : (y 0).val = 0 := by have := (y 0).isLt; simp at this; omega
  unfold iblk
  rw [View.read_apply]
  show V m c main_arg0 _ = m (c.tc.loc main_arg0) _
  rw [Launch.V_main_arg0 m c]
  congr 1
  funext a
  apply Fin.ext
  match a with
  | ⟨0, _⟩ => show win0_1.index t 0 * 1 + 1 * (y 0).val = (k 0).val; rw [i0, hk0, y0]; omega
  | ⟨1, _⟩ => show win0_1.index t 1 * 256 + 1 * (y 1).val = (k 1).val; rw [i1, hk1]; omega
  | ⟨2, _⟩ => show win0_1.index t 2 * 1024 + 1 * (y 2).val = (k 2).val; rw [i2, hk2]; omega

/-- The query tile's mask entries: window 2's block at `t`. -/
theorem iblk2_at (c : Dev nD) (t : Fin cfg0.N) (y : S1x1024x1.Idx) (j : S8x2048.Idx)
    (hj0 : (j 0).val = t.val / 16) (hj1 : (j 1).val = 1024 * (t.val / 8 % 2) + (y 1).val) :
    (iblk m c 2 t : Vec F S1x1024x1 .f32) y = (m ((c : Thread nD τ).loc main_arg1) : S8x2048.Idx → Elt F .f32) j := by
  obtain ⟨i0, i1, i2⟩ := index2 t
  have y0 : (y 0).val = 0 := by have := (y 0).isLt; simp at this; omega
  unfold iblk
  rw [View.read_apply]
  show (V m c main_v0 : S8x2048x1.Idx → Elt F .f32) _ = _
  refine V_main_v0_at m c _ j ?_ ?_
  · show (j 0).val = win0_2.index t 0 * 1 + 1 * (y 0).val; rw [i0, hj0, y0]; omega
  · show (j 1).val = win0_2.index t 1 * 1024 + 1 * (y 1).val; rw [i1, hj1]; omega

/-- The key tile's mask entries: window 3's block at `t`. -/
theorem iblk3_at (c : Dev nD) (t : Fin cfg0.N) (y : S1x256x1.Idx) (j : S8x2048.Idx)
    (hj0 : (j 0).val = t.val / 16) (hj1 : (j 1).val = 256 * (t.val % 8) + (y 1).val) :
    (iblk m c 3 t : Vec F S1x256x1 .f32) y = (m ((c : Thread nD τ).loc main_arg1) : S8x2048.Idx → Elt F .f32) j := by
  obtain ⟨i0, i1, i2⟩ := index3 t
  have y0 : (y 0).val = 0 := by have := (y 0).isLt; simp at this; omega
  unfold iblk
  rw [View.read_apply]
  show (V m c main_v0 : S8x2048x1.Idx → Elt F .f32) _ = _
  refine V_main_v0_at m c _ j ?_ ?_
  · show (j 0).val = win0_3.index t 0 * 1 + 1 * (y 0).val; rw [i0, hj0, y0]; omega
  · show (j 1).val = win0_3.index t 1 * 256 + 1 * (y 1).val; rw [i1, hj1]; omega

end Cert.KernelIdeal.Body

end
-- ==== Proof.KernelIdealCover.lean ====
/-
  Output window 4 of the kernel's one region (the grid has 8 x 2 x 8 = 128 points; the window's block is
  [1, 1024, 1024] of the [8, 2048, 1024] output array): where each point's block lies in the array, which
  points write it back, and that the blocks written back cover the whole array.

  Point t has block index (t / 16, (t / 8) mod 2, 0), so its block is batch t / 16, rows
  1024 * ((t / 8) mod 2) to 1024 * ((t / 8) mod 2) + 1023, all 1024 columns. The block is written back at the
  points t ≡ 7 (mod 8). An array index (b, s, h) lies in the block of the point 16 * b + 8 * (s / 1024) + 7, which
  writes back: every index of the array is covered.
-/
import proofs.«108820_j20366734917932_2_alg».proof.Proof.KernelIdealFrame
import Idealize.ShloMosaic.Lib.Pipeline.Value
import Idealize.ShloMosaic.Lib.ValueIdx

set_option maxRecDepth 16384

noncomputable section

namespace Cert.KernelIdeal.Body.Cover

open Cert.KernelIdeal Cert.KernelIdeal.Gen Cert.KernelIdeal.Body
open Idealize.ShloMosaic Idealize.ShloMosaic.TcCoe Idealize.SL.Sem
open Idealize.ShloMosaic.Pipeline (Dat)

variable {F : FTy → Type} [FloatOps F]

/-- Window 4's block index at point t, decided over the 128 grid points: (t / 16, (t / 8) mod 2, 0). -/
theorem index4 : ∀ t : Fin cfg0.N, win0_4.index t (0 : Fin 3) = t.val / 16
    ∧ win0_4.index t (1 : Fin 3) = t.val / 8 % 2
    ∧ win0_4.index t (2 : Fin 3) = 0 :=
  (by decide +kernel : ∀ t : Fin grid0.N, _)

/-- An index of the array is in point t's block iff each coordinate is in the block's range on its axis. -/
theorem mem_blk4 (t : Fin cfg0.N) (i : S8x2048x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v1).slice (win0_4.rect t)).set ↔ _
  rw [View.set_slice_whole, Rect.mem_set_unit]
  exact Iff.rfl

/-- Every index (b, s, h) of the array is in the block of a point that writes back: the point
    16 * b + 8 * (s / 1024) + 7. -/
theorem cover4 : ∀ i : S8x2048x1024.Idx, ∃ t : Fin cfg0.N, (cfg0.win 4).flush t = true ∧ i ∈ ((cfg0.win 4).blk t).view.set := by
  intro i
  have hi0 : (i 0).val < 8 := (i 0).isLt
  have hi1 : (i 1).val < 2048 := (i 1).isLt
  have hi2 : (i 2).val < 1024 := (i 2).isLt
  have hN : cfg0.N = 128 := N_0
  have hlt : 16 * (i 0).val + 8 * ((i 1).val / 1024) + 7 < cfg0.N :=
    lt_of_lt_of_eq (by omega : 16 * (i 0).val + 8 * ((i 1).val / 1024) + 7 < 128) hN.symm
  obtain ⟨e0, e1, e2⟩ := index4 ⟨16 * (i 0).val + 8 * ((i 1).val / 1024) + 7, hlt⟩
  have tv : (⟨16 * (i 0).val + 8 * ((i 1).val / 1024) + 7, hlt⟩ : Fin cfg0.N).val
      = 16 * (i 0).val + 8 * ((i 1).val / 1024) + 7 := rfl
  rw [tv] at e0 e1
  refine ⟨⟨16 * (i 0).val + 8 * ((i 1).val / 1024) + 7, hlt⟩, (flush0_4 _).mpr (by rw [tv]; omega), ?_⟩
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 1024 ≤ (i 2).val ∧ (i 2).val < win0_4.index _ (2 : Fin 3) * 1024 + 1024; omega

/-- Where point t's block puts its entry y in the array: batch t / 16, row 1024 * ((t / 8) mod 2) + y 1,
    column y 2 (a block's coordinate is its block index times the block's extent plus the coordinate inside the
    block; the block's first extent is 1, so y 0 is 0). -/
theorem emb4_val (t : Fin cfg0.N) (y : S1x1024x1024.Idx) :
    ((((cfg0.win 4).blk t).view.emb y) 0).val = t.val / 16
    ∧ ((((cfg0.win 4).blk t).view.emb y) 1).val = 1024 * (t.val / 8 % 2) + (y 1).val
    ∧ ((((cfg0.win 4).blk t).view.emb y) 2).val = (y 2).val := by
  obtain ⟨e0, e1, e2⟩ := index4 t
  have hy0 : (y 0).val < 1 := (y 0).isLt
  refine ⟨?_, ?_, ?_⟩
  · show win0_4.index t (0 : Fin 3) * 1 + 1 * (y 0).val = _
    omega
  · show win0_4.index t (1 : Fin 3) * 1024 + 1 * (y 1).val = _
    omega
  · show win0_4.index t (2 : Fin 3) * 1024 + 1 * (y 2).val = _
    omega

/-- When what every writing point writes back is its block of one whole-array function G, the output array
    ends holding G: the blocks written back cover the array. -/
theorem final4_of (m : (ℓ : Loc nD τ sig) → Buf (Elt F) ℓ) (c : Dev nD)
    (G : Buf (Elt F) ((cfg0.win 4).arr.view.loc (c.tc : Thread nD τ)))
    (hG : ∀ t : Fin cfg0.N, (cfg0.win 4).flush t = true →
      (dats m 0 c).flushed 4 t = ((cfg0.win 4).blk t).view.read (Elt F) G) :
    (dats m 0 c).arrAt 4 cfg0.N = G :=
  (dats m 0 c).arrAt_eq_of_cover 4 G hG cover4

end Cert.KernelIdeal.Body.Cover

end
-- ==== Proof.LibOnlineSoftmax.lean ====
/-
  The streaming ("online") softmax-weighted sum over key tiles equals the dense
  softmax-weighted sum, on the extended reals.

  Scores and values are real. The streaming recurrence keeps, before tile j, a running
  maximum m j, a normaliser l j and a weighted sum a j, starting from m 0 = -∞, l 0 = 0, a 0 = 0:
      m (j+1) = max (m j) (max of tile j's scores)
      l (j+1) = exp (m j - m (j+1)) * l j + Σ_r exp (s j r - m (j+1))
      a (j+1) = exp (m j - m (j+1)) * a j + Σ_r exp (s j r - m (j+1)) * v j r
  After the first tile every state is a real number: m j is the maximum of the first j
  tiles' scores, l j = Σ_{i<j} Σ_r exp (s i r - m j) and a j the same sum weighted by v
  (exp (x - y) * exp (z - x) = exp (z - y)). At the end l T is a positive real, so the
  quotient a T / l T is the sum of the quotients exp (s - M) / L times v.
-/
import Idealize.ShloMosaic.PureOps.Ideal

namespace Cert.Lib.OnlineSoftmax

open Idealize.ShloMosaic

/-- The coercion of a finite real sum to the extended reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert x t hx ih => rw [Finset.sum_insert hx, Finset.sum_insert hx, EReal.coe_add, ih]

/-- The coercion of the maximum of two reals is the maximum of the coercions. -/
theorem coe_max (x y : ℝ) : ((max x y : ℝ) : EReal) = max (x : EReal) (y : EReal) :=
  EReal.coe_strictMono.monotone.map_max

/-- Over a nonempty finite set, the extended-real supremum of real values is the coercion of
    their real maximum. -/
theorem sup_coe {ι : Type*} (t : Finset ι) (ht : t.Nonempty) (f : ι → ℝ) :
    t.sup (fun i => (f i : EReal)) = ((t.sup' ht f : ℝ) : EReal) := by
  rw [← Finset.sup'_eq_sup ht]
  exact (Finset.apply_sup'_eq_sup'_comp ht (fun x : ℝ => (x : EReal)) coe_max).symm

/-- On the nonempty index type Fin n, the supremum of real values is the coercion of a real,
    namely of their maximum. -/
theorem sup_univ_coe {n : ℕ} (hn : 0 < n) (f : Fin n → ℝ) :
    Finset.univ.sup (fun r => (f r : EReal))
      = ((Finset.univ.sup' ⟨⟨0, hn⟩, Finset.mem_univ _⟩ f : ℝ) : EReal) :=
  sup_coe _ _ f

/-- The exponential of a difference of two reals, taken on the extended reals, is the real
    exponential of the real difference. -/
theorem exp_coe_sub_coe (x y : ℝ) :
    Ideal.exp ((x : EReal) - (y : EReal)) = ((Real.exp (x - y) : ℝ) : EReal) := by
  rw [← EReal.coe_sub, Ideal.exp_coe]

/-- Moving the reference point of weighted exponentials from μ to μ':
    exp (μ - μ') * Σ Σ exp (s - μ) * w = Σ Σ exp (s - μ') * w. -/
theorem exp_mul_sum {ι : Type*} {n : ℕ} (t : Finset ι) (s w : ι → Fin n → ℝ) (μ μ' : ℝ) :
    Real.exp (μ - μ') * ∑ i ∈ t, ∑ r, Real.exp (s i r - μ) * w i r
      = ∑ i ∈ t, ∑ r, Real.exp (s i r - μ') * w i r := by
  rw [Finset.mul_sum]
  refine Finset.sum_congr rfl fun i _ => ?_
  rw [Finset.mul_sum]
  refine Finset.sum_congr rfl fun r _ => ?_
  rw [← mul_assoc, ← Real.exp_add]
  congr 2; ring

/-- The same without weights. -/
theorem exp_mul_sum_one {ι : Type*} {n : ℕ} (t : Finset ι) (s : ι → Fin n → ℝ) (μ μ' : ℝ) :
    Real.exp (μ - μ') * ∑ i ∈ t, ∑ r, Real.exp (s i r - μ)
      = ∑ i ∈ t, ∑ r, Real.exp (s i r - μ') := by
  have h := exp_mul_sum t s (fun _ _ => 1) μ μ'
  simp only [mul_one] at h
  exact h

/-- The streaming state after j ≥ 1 tiles is real: the running maximum is the maximum μ of the
    first j tiles' scores, the normaliser is Σ_{i<j} Σ_r exp (s i r - μ), and the weighted sum
    is the same sum with each term times v i r. -/
theorem state_real (T n : ℕ) (s v : ℕ → Fin n → ℝ) (m l a : ℕ → EReal)
    (h0 : m 0 = ⊥ ∧ l 0 = 0 ∧ a 0 = 0)
    (hstep : ∀ j, j < T →
      m (j + 1) = max (m j) (Finset.univ.sup fun r => (s j r : EReal)) ∧
      l (j + 1) = Ideal.exp (m j - m (j + 1)) * l j
                    + ∑ r, Ideal.exp ((s j r : EReal) - m (j + 1)) ∧
      a (j + 1) = Ideal.exp (m j - m (j + 1)) * a j
                    + ∑ r, Ideal.exp ((s j r : EReal) - m (j + 1)) * (v j r : EReal))
    (hn : 0 < n) (j : ℕ) (hj1 : 1 ≤ j) (hjT : j ≤ T) :
    ∃ μ : ℝ, m j = (μ : EReal) ∧
      ((Finset.range j).sup fun i => Finset.univ.sup fun r => (s i r : EReal)) = (μ : EReal) ∧
      l j = ((∑ i ∈ Finset.range j, ∑ r, Real.exp (s i r - μ) : ℝ) : EReal) ∧
      a j = ((∑ i ∈ Finset.range j, ∑ r, Real.exp (s i r - μ) * v i r : ℝ) : EReal) := by
  induction j, hj1 using Nat.le_induction with
  | base =>
    obtain ⟨hm, hl, ha⟩ := hstep 0 (by omega)
    obtain ⟨hm0, hl0, ha0⟩ := h0
    simp only [zero_add] at hm hl ha
    have hτ := sup_univ_coe hn (s 0)
    rw [hm0, hτ, max_eq_right bot_le] at hm
    refine ⟨_, hm, ?_, ?_, ?_⟩
    · rw [Finset.range_one, Finset.sup_singleton, hτ]
    · rw [hl, hl0, mul_zero, zero_add, hm, Finset.sum_range_one]
      simp only [exp_coe_sub_coe]
      rw [← coe_sum]
    · rw [ha, ha0, mul_zero, zero_add, hm, Finset.sum_range_one]
      simp only [exp_coe_sub_coe, ← EReal.coe_mul]
      rw [← coe_sum]
  | succ j hj1 ih =>
    obtain ⟨μ, hmj, hsup, hlj, haj⟩ := ih (by omega)
    obtain ⟨hm, hl, ha⟩ := hstep j (by omega)
    have hτ := sup_univ_coe hn (s j)
    rw [hmj, hτ, ← coe_max] at hm
    refine ⟨_, hm, ?_, ?_, ?_⟩
    · rw [Finset.range_add_one, Finset.sup_insert, hsup, hτ, coe_max, max_comm]
    · rw [hl, hmj, hm, hlj, Finset.sum_range_succ]
      simp only [exp_coe_sub_coe]
      rw [← EReal.coe_mul, ← coe_sum, ← EReal.coe_add, exp_mul_sum_one]
    · rw [ha, hmj, hm, haj, Finset.sum_range_succ]
      simp only [exp_coe_sub_coe, ← EReal.coe_mul]
      rw [← coe_sum, ← EReal.coe_add, exp_mul_sum]

/-- The dense side in reals: with real scores, values and reference point μ, and a nonzero
    normaliser, the quotient of the weighted sum by the normaliser is the sum of the
    quotients exp (s - μ) / L times v. -/
theorem dense_real {ι : Type*} {n : ℕ} (t : Finset ι) (s v : ι → Fin n → ℝ) (μ : ℝ)
    (hℓ : (∑ i ∈ t, ∑ r, Real.exp (s i r - μ)) ≠ 0) :
    Ideal.div ((∑ i ∈ t, ∑ r, Real.exp (s i r - μ) * v i r : ℝ) : EReal)
        ((∑ i ∈ t, ∑ r, Real.exp (s i r - μ) : ℝ) : EReal)
      = ∑ j ∈ t, ∑ r, Ideal.div (Ideal.exp ((s j r : EReal) - (μ : EReal)))
          (∑ j ∈ t, ∑ r, Ideal.exp ((s j r : EReal) - (μ : EReal))) * (v j r : EReal) := by
  simp only [exp_coe_sub_coe, ← coe_sum]
  simp only [Ideal.div_coe hℓ, ← EReal.coe_mul, ← coe_sum]
  rw [EReal.coe_eq_coe_iff, Finset.sum_mul]
  refine Finset.sum_congr rfl fun i _ => ?_
  rw [Finset.sum_mul]
  refine Finset.sum_congr rfl fun r _ => ?_
  ring

/-- The streaming softmax-weighted sum over T tiles of n real scores, tiles indexed by the
    naturals below T, equals the dense softmax-weighted sum over all T * n scores. -/
theorem online_eq_dense_nat (T n : ℕ) (s v : ℕ → Fin n → ℝ) (m l a : ℕ → EReal)
    (h0 : m 0 = ⊥ ∧ l 0 = 0 ∧ a 0 = 0)
    (hstep : ∀ j, j < T →
      m (j + 1) = max (m j) (Finset.univ.sup fun r => (s j r : EReal)) ∧
      l (j + 1) = Ideal.exp (m j - m (j + 1)) * l j
                    + ∑ r, Ideal.exp ((s j r : EReal) - m (j + 1)) ∧
      a (j + 1) = Ideal.exp (m j - m (j + 1)) * a j
                    + ∑ r, Ideal.exp ((s j r : EReal) - m (j + 1)) * (v j r : EReal))
    (hT : 0 < T) (hn : 0 < n) :
    Ideal.div (a T) (l T)
      = ∑ j ∈ Finset.range T, ∑ r,
          Ideal.div
            (Ideal.exp ((s j r : EReal)
              - (Finset.range T).sup fun j => Finset.univ.sup fun r => (s j r : EReal)))
            (∑ j ∈ Finset.range T, ∑ r, Ideal.exp ((s j r : EReal)
              - (Finset.range T).sup fun j => Finset.univ.sup fun r => (s j r : EReal)))
          * (v j r : EReal) := by
  obtain ⟨μ, -, hsupT, hlT, haT⟩ := state_real T n s v m l a h0 hstep hn T hT le_rfl
  have hℓ : (∑ i ∈ Finset.range T, ∑ r, Real.exp (s i r - μ)) ≠ 0 :=
    ne_of_gt (Finset.sum_pos
      (fun i _ => Finset.sum_pos (fun r _ => Real.exp_pos _) ⟨⟨0, hn⟩, Finset.mem_univ _⟩)
      ⟨0, Finset.mem_range.mpr hT⟩)
  rw [hsupT, haT, hlT]
  exact dense_real _ s v μ hℓ

/-- A supremum over the naturals below T is the supremum over Fin T. -/
theorem sup_range_eq_sup_univ (T : ℕ) (g : ℕ → EReal) :
    (Finset.range T).sup g = Finset.univ.sup fun i : Fin T => g i.val := by
  apply le_antisymm
  · exact Finset.sup_le fun i hi =>
      Finset.le_sup (f := fun i : Fin T => g i.val) (Finset.mem_univ ⟨i, Finset.mem_range.mp hi⟩)
  · exact Finset.sup_le fun i _ => Finset.le_sup (f := g) (Finset.mem_range.mpr i.isLt)

/-- The streaming softmax-weighted sum over T tiles of n real scores equals the dense
    softmax-weighted sum: with M the maximum of all scores and L = Σ_j Σ_r exp (s j r - M),
    a T / l T = Σ_j Σ_r (exp (s j r - M) / L) * v j r. -/
theorem online_eq_dense (T n : ℕ) (s v : Fin T → Fin n → ℝ) (m l a : ℕ → EReal)
    (h0 : m 0 = ⊥ ∧ l 0 = 0 ∧ a 0 = 0)
    (hstep : ∀ j : Fin T,
      m (j.val + 1) = max (m j.val) (Finset.univ.sup fun r => (s j r : EReal)) ∧
      l (j.val + 1) = Ideal.exp (m j.val - m (j.val + 1)) * l j.val
                    + ∑ r, Ideal.exp ((s j r : EReal) - m (j.val + 1)) ∧
      a (j.val + 1) = Ideal.exp (m j.val - m (j.val + 1)) * a j.val
                    + ∑ r, Ideal.exp ((s j r : EReal) - m (j.val + 1)) * (v j r : EReal))
    (hT : 0 < T) (hn : 0 < n) :
    Ideal.div (a T) (l T)
      = ∑ j, ∑ r,
          Ideal.div
            (Ideal.exp ((s j r : EReal)
              - Finset.univ.sup fun j => Finset.univ.sup fun r => (s j r : EReal)))
            (∑ j, ∑ r, Ideal.exp ((s j r : EReal)
              - Finset.univ.sup fun j => Finset.univ.sup fun r => (s j r : EReal)))
          * (v j r : EReal) := by
  obtain ⟨s', hs⟩ : ∃ s' : ℕ → Fin n → ℝ, ∀ j : Fin T, s' j.val = s j :=
    ⟨fun i => if h : i < T then s ⟨i, h⟩ else fun _ => 0, fun j => by simp⟩
  obtain ⟨v', hv⟩ : ∃ v' : ℕ → Fin n → ℝ, ∀ j : Fin T, v' j.val = v j :=
    ⟨fun i => if h : i < T then v ⟨i, h⟩ else fun _ => 0, fun j => by simp⟩
  have key := online_eq_dense_nat T n s' v' m l a h0 (fun j hj => by
    have h := hstep ⟨j, hj⟩
    have e1 : s' j = s ⟨j, hj⟩ := hs ⟨j, hj⟩
    have e2 : v' j = v ⟨j, hj⟩ := hv ⟨j, hj⟩
    rw [e1, e2]
    exact h) hT hn
  rw [key]
  simp only [Finset.sum_range, sup_range_eq_sup_univ, hs, hv]

/-- A double sum over tile j and position r of a function of the flat index r + n * j is the
    sum over the flat index. -/
theorem sum_finProd {α : Type*} [AddCommMonoid α] (T n : ℕ) (F : Fin (T * n) → α) :
    ∑ j : Fin T, ∑ r : Fin n, F (finProdFinEquiv (j, r)) = ∑ k, F k := by
  rw [← Fintype.sum_prod_type' (f := fun j r => F (finProdFinEquiv (j, r)))]
  exact Equiv.sum_comp finProdFinEquiv F

/-- A double supremum over tile j and position r of a function of the flat index is the
    supremum over the flat index. -/
theorem sup_finProd (T n : ℕ) (F : Fin (T * n) → EReal) :
    (Finset.univ.sup fun j : Fin T => Finset.univ.sup fun r : Fin n => F (finProdFinEquiv (j, r)))
      = Finset.univ.sup F := by
  apply le_antisymm
  · exact Finset.sup_le fun j _ => Finset.sup_le fun r _ => Finset.le_sup (Finset.mem_univ _)
  · refine Finset.sup_le fun k _ => ?_
    have hk : finProdFinEquiv ((finProdFinEquiv.symm k).1, (finProdFinEquiv.symm k).2) = k :=
      finProdFinEquiv.apply_symm_apply k
    calc F k = F (finProdFinEquiv ((finProdFinEquiv.symm k).1, (finProdFinEquiv.symm k).2)) := by
            rw [hk]
      _ ≤ Finset.univ.sup fun r => F (finProdFinEquiv ((finProdFinEquiv.symm k).1, r)) :=
            Finset.le_sup (f := fun r => F (finProdFinEquiv ((finProdFinEquiv.symm k).1, r)))
              (Finset.mem_univ _)
      _ ≤ _ := Finset.le_sup
            (f := fun j : Fin T => Finset.univ.sup fun r : Fin n => F (finProdFinEquiv (j, r)))
            (Finset.mem_univ _)

/-- The same theorem with the T * n scores and values carried by ONE index k = r + n * j
    (tile j, position r, through finProdFinEquiv): with M' the maximum of all scores and
    L' = Σ_k exp (S k - M'), a T / l T = Σ_k (exp (S k - M') / L') * V k. -/
theorem online_eq_dense_flat (T n : ℕ) (S V : Fin (T * n) → ℝ) (m l a : ℕ → EReal)
    (h0 : m 0 = ⊥ ∧ l 0 = 0 ∧ a 0 = 0)
    (hstep : ∀ j : Fin T,
      m (j.val + 1) = max (m j.val)
          (Finset.univ.sup fun r => (S (finProdFinEquiv (j, r)) : EReal)) ∧
      l (j.val + 1) = Ideal.exp (m j.val - m (j.val + 1)) * l j.val
          + ∑ r, Ideal.exp ((S (finProdFinEquiv (j, r)) : EReal) - m (j.val + 1)) ∧
      a (j.val + 1) = Ideal.exp (m j.val - m (j.val + 1)) * a j.val
          + ∑ r, Ideal.exp ((S (finProdFinEquiv (j, r)) : EReal) - m (j.val + 1))
              * (V (finProdFinEquiv (j, r)) : EReal))
    (hT : 0 < T) (hn : 0 < n) :
    Ideal.div (a T) (l T)
      = ∑ k : Fin (T * n),
          Ideal.div
            (Ideal.exp ((S k : EReal) - Finset.univ.sup fun k => (S k : EReal)))
            (∑ k, Ideal.exp ((S k : EReal) - Finset.univ.sup fun k => (S k : EReal)))
          * (V k : EReal) := by
  rw [online_eq_dense T n (fun j r => S (finProdFinEquiv (j, r)))
    (fun j r => V (finProdFinEquiv (j, r))) m l a h0 hstep hT hn]
  rw [sup_finProd T n (fun k => (S k : EReal))]
  rw [sum_finProd T n
    (fun k => Ideal.exp ((S k : EReal) - Finset.univ.sup fun k => (S k : EReal)))]
  exact sum_finProd T n (fun k =>
    Ideal.div (Ideal.exp ((S k : EReal) - Finset.univ.sup fun k => (S k : EReal)))
      (∑ k, Ideal.exp ((S k : EReal) - Finset.univ.sup fun k => (S k : EReal))) * (V k : EReal))

/-- A fold of max from b over a finite set is the maximum of b and the set's supremum. -/
theorem fold_max_eq {ι : Type*} (t : Finset ι) (b : EReal) (f : ι → EReal) :
    t.fold max b f = max b (t.sup f) := by
  classical
  induction t using Finset.induction_on with
  | empty => simp
  | insert x t hx ih => rw [Finset.fold_insert hx, Finset.sup_insert, ih, max_left_comm]

/-- A left fold of max from b over the list of the values of f on Fin n is the maximum of b
    and the supremum of f. -/
theorem foldl_max_ofFn {n : ℕ} (b : EReal) (f : Fin n → EReal) :
    List.foldl max b (List.ofFn f) = max b (Finset.univ.sup f) := by
  induction n generalizing b with
  | zero => simp
  | succ n ih =>
    rw [List.ofFn_succ, List.foldl_cons, ih, Fin.univ_succ, Finset.sup_cons, Finset.sup_map,
      max_assoc]
    rfl

/-- The supremum over Fin n as a left fold of max from -∞ over the list of values. -/
theorem sup_univ_eq_foldl {n : ℕ} (f : Fin n → EReal) :
    Finset.univ.sup f = List.foldl max ⊥ (List.ofFn f) := by
  rw [foldl_max_ofFn, max_eq_right bot_le]

end Cert.Lib.OnlineSoftmax
-- ==== Proof.Finite.lean ====
/-
  Every entry of the two argument arrays is a real number when the precondition holds, and the
  score and attention specification written over real-valued data.
-/
import proofs.«108820_j20366734917932_2_alg».proof.Proof.Gen.Pre_finite_inputs
import proofs.«108820_j20366734917932_2_alg».proof.Proof.Spec
import proofs.«108820_j20366734917932_2_alg».proof.Proof.LibOnlineSoftmax
import Idealize.ShloMosaic.Lib.ReduceAll
import Idealize.ShloMosaic.Lib.ValueIdx
import Idealize.ShloMosaic.Lib.IdealHost

namespace Cert.Finite

open Idealize.ShloMosaic Idealize.ShloMosaic.ValueIdx

/-- The rank-0 shape has one index. -/
instance : Subsingleton Cert.Pre_finite_inputs.S_.Idx := ⟨fun a b => funext fun d => d.elim0⟩

/-- The pattern 0x7F800000 denotes +∞. -/
theorem ofBits_inf : Ideal.ofBits .f32 0x7F800000#32 = ⊤ := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison |x| < +∞ being true says that element of x is a real number. -/
theorem elt_real {s : Shape} (x : FVec Ideal s .f32)
    (hb : (⟨0, ![]⟩ : Shape).BroadcastsInDim s ![]) (i : s.Idx)
    (e : cmpf .olt (Host.absf x)
          (broadcastInDim s ![] hb (constant ⟨0, ![]⟩ .f32 0x7F800000#32)) i = 1#1) :
    ∃ r : ℝ, x i = (r : EReal) := by
  have e1 : FloatOps.cmpf (F := Ideal) (φ := .f32) .olt (Host.absf x i)
      (broadcastInDim s ![] hb (constant ⟨0, ![]⟩ .f32 0x7F800000#32) i) = 1#1 := e
  rw [broadcastInDim_scalar_apply] at e1
  have e2 : Ideal.cmp .olt (max (x i) (-(x i))) (Ideal.ofBits .f32 0x7F800000#32) = 1#1 := e1
  rw [ofBits_inf] at e2
  have e3 : BitVec.ofBool (decide (max (x i) (-(x i)) < ⊤)) = 1#1 := e2
  apply real_of_abs_lt_top
  by_contra hlt
  rw [decide_eq_false hlt] at e3
  exact absurd e3 (by decide)

/-- Under the precondition (the predicate all |arg0| < +∞ and all |arg1| < +∞ is true), every
    entry of both argument arrays is a real number. -/
theorem finite_of_pre [Cert.Pre_finite_inputs.Facts]
    (X : FVec Ideal Cert.Pre_finite_inputs.S8x2048x1024 .f32)
    (Mk : FVec Ideal Cert.Pre_finite_inputs.S8x2048 .f32)
    (h : Cert.Pre_finite_inputs.fn (F := Ideal) X Mk = fun _ => 1#1) :
    (∀ i, ∃ r : ℝ, X i = (r : EReal)) ∧ (∀ i, ∃ r : ℝ, Mk i = (r : EReal)) := by
  have h0 := congrFun h ValueIdx.ix0
  dsimp only [Cert.Pre_finite_inputs.fn] at h0
  obtain ⟨hX, hM⟩ := IntOp.andi_eq_one.1 h0
  exact ⟨fun i => elt_real X _ i (Host.reduce_andi_all _ _ _ _ _ hX i),
    fun i => elt_real Mk _ i (Host.reduce_andi_all _ _ _ _ _ hM i)⟩

open Cert.Lib.OnlineSoftmax

/-- The scaled score over real data: the inner product of the two masked rows, times 1/32. -/
noncomputable def score' (X' : Fin 8 → Fin 2048 → Fin 1024 → ℝ) (μ' : Fin 8 → Fin 2048 → ℝ)
    (b : Fin 8) (q k : Fin 2048) : ℝ :=
  (∑ h : Fin 1024, (X' b q h * μ' b q) * (X' b k h * μ' b k)) * (1 / 32)

section
variable (X : Fin 8 → Fin 2048 → Fin 1024 → EReal) (μ : Fin 8 → Fin 2048 → EReal)
  (X' : Fin 8 → Fin 2048 → Fin 1024 → ℝ) (μ' : Fin 8 → Fin 2048 → ℝ)
  (hX : ∀ b s h, X b s h = (X' b s h : EReal)) (hμ : ∀ b s, μ b s = (μ' b s : EReal))
include hX hμ

/-- On real-valued data the specification's score is the coercion of the real score. -/
theorem score_coe (b : Fin 8) (q k : Fin 2048) :
    Cert.Attn.score X μ b q k = ((score' X' μ' b q k : ℝ) : EReal) := by
  unfold Cert.Attn.score Cert.Attn.masked Cert.Attn.scale score'
  simp only [hX, hμ, ← EReal.coe_mul, ← coe_sum]

/-- The score with the scale multiplied into the query row's mask entry first is the same real
    number: Σ_h (x q h * (μ q * 1/32)) * (x k h * μ k) = (Σ_h (x q h * μ q) * (x k h * μ k)) * 1/32. -/
theorem kscore_coe (b : Fin 8) (q k : Fin 2048) :
    (∑ h : Fin 1024, (X b q h * (μ b q * Cert.Attn.scale)) * (X b k h * μ b k))
      = ((score' X' μ' b q k : ℝ) : EReal) := by
  unfold Cert.Attn.scale score'
  simp only [hX, hμ, ← EReal.coe_mul, ← coe_sum]
  rw [EReal.coe_eq_coe_iff, Finset.sum_mul]
  refine Finset.sum_congr rfl fun h _ => ?_
  ring

/-- So the two score forms agree on real-valued data. -/
theorem kscore_eq_score (b : Fin 8) (q k : Fin 2048) :
    (∑ h : Fin 1024, (X b q h * (μ b q * Cert.Attn.scale)) * (X b k h * μ b k))
      = Cert.Attn.score X μ b q k := by
  rw [kscore_coe X μ X' μ' hX hμ, score_coe X μ X' μ' hX hμ]

/-- The specification on real-valued data, unfolded: the softmax-weighted sum over the keys with
    every score the coercion of the real score. -/
theorem attn_coe_form (b : Fin 8) (q : Fin 2048) (h : Fin 1024) :
    Cert.Attn.attn X μ b q h
      = ∑ k : Fin 2048,
          Ideal.div
            (Ideal.exp ((score' X' μ' b q k : EReal)
              - Finset.univ.sup fun k => (score' X' μ' b q k : EReal)))
            (∑ k, Ideal.exp ((score' X' μ' b q k : EReal)
              - Finset.univ.sup fun k => (score' X' μ' b q k : EReal)))
          * (X' b k h : EReal) := by
  unfold Cert.Attn.attn Cert.Attn.normaliser Cert.Attn.weight Cert.Attn.rowMax
  simp only [score_coe X μ X' μ' hX hμ, hX]

end

/-- The flat index of tile j, position r among 8 tiles of 256 is r + 256 * j. -/
theorem finProd_val (j : Fin 8) (r : Fin 256) :
    ((finProdFinEquiv (j, r) : Fin (8 * 256)) : ℕ) = r.val + 256 * j.val := rfl

/-- The streaming softmax over 8 tiles of 256 keys equals the dense one, stated over Fin 2048
    (8 * 256 is 2048): the flat theorem at T = 8, n = 256. -/
theorem online_eq_dense_2048 (S V : Fin 2048 → ℝ) (m l a : ℕ → EReal)
    (h0 : m 0 = ⊥ ∧ l 0 = 0 ∧ a 0 = 0)
    (hstep : ∀ j : Fin 8,
      m (j.val + 1) = max (m j.val)
          (Finset.univ.sup fun r : Fin 256 => (S (finProdFinEquiv (j, r)) : EReal)) ∧
      l (j.val + 1) = Ideal.exp (m j.val - m (j.val + 1)) * l j.val
          + ∑ r : Fin 256, Ideal.exp ((S (finProdFinEquiv (j, r)) : EReal) - m (j.val + 1)) ∧
      a (j.val + 1) = Ideal.exp (m j.val - m (j.val + 1)) * a j.val
          + ∑ r : Fin 256, Ideal.exp ((S (finProdFinEquiv (j, r)) : EReal) - m (j.val + 1))
              * (V (finProdFinEquiv (j, r)) : EReal)) :
    Ideal.div (a 8) (l 8)
      = ∑ k : Fin 2048,
          Ideal.div
            (Ideal.exp ((S k : EReal) - Finset.univ.sup fun k => (S k : EReal)))
            (∑ k, Ideal.exp ((S k : EReal) - Finset.univ.sup fun k => (S k : EReal)))
          * (V k : EReal) :=
  online_eq_dense_flat 8 256 S V m l a h0 hstep (by decide) (by decide)

/-- The streaming recurrence over 8 tiles of 256 keys, run on the real scores of query row q and
    the column h of the data, ends at the specification's attention output at (b, q, h). -/
theorem attn_eq_online (X : Fin 8 → Fin 2048 → Fin 1024 → EReal) (μ : Fin 8 → Fin 2048 → EReal)
    (X' : Fin 8 → Fin 2048 → Fin 1024 → ℝ) (μ' : Fin 8 → Fin 2048 → ℝ)
    (hX : ∀ b s h, X b s h = (X' b s h : EReal)) (hμ : ∀ b s, μ b s = (μ' b s : EReal))
    (b : Fin 8) (q : Fin 2048) (h : Fin 1024) (m l a : ℕ → EReal)
    (h0 : m 0 = ⊥ ∧ l 0 = 0 ∧ a 0 = 0)
    (hstep : ∀ j : Fin 8,
      m (j.val + 1) = max (m j.val)
          (Finset.univ.sup fun r : Fin 256 =>
            (score' X' μ' b q (finProdFinEquiv (j, r)) : EReal)) ∧
      l (j.val + 1) = Ideal.exp (m j.val - m (j.val + 1)) * l j.val
          + ∑ r : Fin 256,
              Ideal.exp ((score' X' μ' b q (finProdFinEquiv (j, r)) : EReal) - m (j.val + 1)) ∧
      a (j.val + 1) = Ideal.exp (m j.val - m (j.val + 1)) * a j.val
          + ∑ r : Fin 256,
              Ideal.exp ((score' X' μ' b q (finProdFinEquiv (j, r)) : EReal) - m (j.val + 1))
                * (X' b (finProdFinEquiv (j, r)) h : EReal)) :
    Ideal.div (a 8) (l 8) = Cert.Attn.attn X μ b q h := by
  rw [attn_coe_form X μ X' μ' hX hμ]
  exact online_eq_dense_2048 (fun k => score' X' μ' b q k) (fun k => X' b k h) m l a h0 hstep

end Cert.Finite
-- ==== Proof.KernelIdealValue.lean ====
/-
  What the attention kernel computes, at the ideal instance: its result array is the specification `Cert.Attn.attn` of the
  two argument arrays.

  Fix a sequence `b`, a query tile `qi` and a query row `r` of it (row `1024·qi + r` of the sequence). Over the eight key
  tiles the kernel keeps, for that row, a running maximum, a running normaliser and — per feature `h` — a running weighted
  sum. Each key tile's scores are the inner products of the scaled masked query row with the tile's masked key rows; with
  finite inputs these are the specification's scores, real numbers. The three running quantities then satisfy exactly the
  recurrence of the streaming softmax, whose final quotient is the dense softmax-weighted sum (`Cert.Finite.attn_eq_online`);
  and that quotient is what the last key tile stores into the output block.
-/
import proofs.«108820_j20366734917932_2_alg».proof.Proof.KernelIdealStep
import proofs.«108820_j20366734917932_2_alg».proof.Proof.KernelIdealPay
import proofs.«108820_j20366734917932_2_alg».proof.Proof.KernelIdealBlocks
import proofs.«108820_j20366734917932_2_alg».proof.Proof.KernelIdealCover
import proofs.«108820_j20366734917932_2_alg».proof.Proof.Finite
import proofs.«108820_j20366734917932_2_alg».proof.Proof.Spec
import Idealize.ShloMosaic.Lib.ValueIdx
import Idealize.ShloMosaic.Lib.Pipeline.Value

set_option maxRecDepth 16384

noncomputable section

namespace Cert.KernelIdeal.AttnValue

open Cert.KernelIdeal Cert.KernelIdeal.Gen Cert.KernelIdeal.Body Cert.KernelIdeal.Pay
open Idealize.ShloMosaic Idealize.ShloMosaic.TcCoe Idealize.SL.Sem Idealize.ShloMosaic.ValueIdx
open Idealize.ShloMosaic.Pipeline (Dat)
open Cert.KernelIdeal.Launch (V)

variable (m : (ℓ : Loc nD τ sig) → Buf (Elt Ideal) ℓ) (c : Dev nD)

/-- The two argument arrays, by coordinates. -/
abbrev Xc : Fin 8 → Fin 2048 → Fin 1024 → EReal :=
  fun b s h => (m ((c : Thread nD τ).loc main_arg0) : S8x2048x1024.Idx → EReal) (ix3 b s h)
abbrev μc : Fin 8 → Fin 2048 → EReal :=
  fun b s => (m ((c : Thread nD τ).loc main_arg1) : S8x2048.Idx → EReal) (ix2 b s)

/-! ## Points, query rows, key rows -/

/-- The grid point of sequence `b`, query tile `qi`, key tile `j`. -/
def pt (b : Fin 8) (qi : Fin 2) (j : Fin 8) : Fin cfg0.N :=
  ⟨16 * b.val + 8 * qi.val + j.val, by rw [show cfg0.N = 128 from N_0]; have := b.isLt; have := qi.isLt; have := j.isLt; omega⟩

theorem pt_div16 (b : Fin 8) (qi : Fin 2) (j : Fin 8) : (pt b qi j).val / 16 = b.val := by
  show (16 * b.val + 8 * qi.val + j.val) / 16 = b.val; have := qi.isLt; have := j.isLt; omega
theorem pt_tile (b : Fin 8) (qi : Fin 2) (j : Fin 8) : (pt b qi j).val / 8 % 2 = qi.val := by
  show (16 * b.val + 8 * qi.val + j.val) / 8 % 2 = qi.val; have := qi.isLt; have := j.isLt; omega
theorem pt_mod8 (b : Fin 8) (qi : Fin 2) (j : Fin 8) : (pt b qi j).val % 8 = j.val := by
  show (16 * b.val + 8 * qi.val + j.val) % 8 = j.val; have := j.isLt; omega

/-- Row `r` of query tile `qi`, and row `r'` of key tile `j`, as rows of the sequence. -/
def qrow (qi : Fin 2) (r : Fin 1024) : Fin 2048 := ⟨1024 * qi.val + r.val, by have := qi.isLt; have := r.isLt; omega⟩
def krow (j : Fin 8) (r' : Fin 256) : Fin 2048 := ⟨256 * j.val + r'.val, by have := j.isLt; have := r'.isLt; omega⟩

theorem krow_eq (j : Fin 8) (r' : Fin 256) : krow j r' = (finProdFinEquiv (j, r') : Fin (8 * 256)) :=
  Fin.ext (by rw [Cert.Finite.finProd_val]; show 256 * j.val + r'.val = _; omega)

/-! ## The blocks at a point's coordinates -/

theorem x0_at (b : Fin 8) (qi : Fin 2) (j : Fin 8) (r h : Fin 1024) :
    (iblk m c 0 (pt b qi j) : Vec Ideal S1x1024x1024 .f32) (ix3 0 r h) = Xc m c b (qrow qi r) h :=
  iblk0_at m c (pt b qi j) (ix3 0 r h) (ix3 b (qrow qi r) h) (by show b.val = _; rw [pt_div16]) (by show 1024 * qi.val + r.val = _; rw [pt_tile]) rfl
theorem x1_at (b : Fin 8) (qi : Fin 2) (j : Fin 8) (r' : Fin 256) (h : Fin 1024) :
    (iblk m c 1 (pt b qi j) : Vec Ideal S1x256x1024 .f32) (ix3 0 r' h) = Xc m c b (krow j r') h :=
  iblk1_at m c (pt b qi j) (ix3 0 r' h) (ix3 b (krow j r') h) (by show b.val = _; rw [pt_div16]) (by show 256 * j.val + r'.val = _; rw [pt_mod8]) rfl
theorem x2_at (b : Fin 8) (qi : Fin 2) (j : Fin 8) (r : Fin 1024) :
    (iblk m c 2 (pt b qi j) : Vec Ideal S1x1024x1 .f32) (ix3 0 r 0) = μc m c b (qrow qi r) :=
  iblk2_at m c (pt b qi j) (ix3 0 r 0) (ix2 b (qrow qi r)) (by show b.val = _; rw [pt_div16]) (by show 1024 * qi.val + r.val = _; rw [pt_tile])
theorem x3_at (b : Fin 8) (qi : Fin 2) (j : Fin 8) (r' : Fin 256) :
    (iblk m c 3 (pt b qi j) : Vec Ideal S1x256x1 .f32) (ix3 0 r' 0) = μc m c b (krow j r') :=
  iblk3_at m c (pt b qi j) (ix3 0 r' 0) (ix2 b (krow j r')) (by show b.val = _; rw [pt_div16]) (by show 256 * j.val + r'.val = _; rw [pt_mod8])

/-! ## The running quantities of one query row -/

/-- The state after the point of key tile `j`. -/
abbrev St (b : Fin 8) (qi : Fin 2) (j : Fin 8) : PointState Ideal := stateAt m c (pt b qi j).val (pt b qi j).isLt

/-- Before key tile `n`: the running maximum, normaliser and weighted sum of query row `r` (feature `h`). -/
def mSeq (b : Fin 8) (qi : Fin 2) (r : Fin 1024) : ℕ → EReal
  | 0 => ⊥
  | n + 1 => if hn : n < 8 then (St m c b qi ⟨n, hn⟩).mx (ix2 r 0) else ⊥
def lSeq (b : Fin 8) (qi : Fin 2) (r : Fin 1024) : ℕ → EReal
  | 0 => 0
  | n + 1 => if hn : n < 8 then (St m c b qi ⟨n, hn⟩).nm (ix2 r 0) else 0
def aSeq (b : Fin 8) (qi : Fin 2) (r h : Fin 1024) : ℕ → EReal
  | 0 => 0
  | n + 1 => if hn : n < 8 then (St m c b qi ⟨n, hn⟩).acc (ix2 r h) else 0

/-- The state the point before left, at the next key tile's point. -/
theorem prev_eq (b : Fin 8) (qi : Fin 2) (n : ℕ) (hn : n + 1 < 8) :
    stateAt m c ((pt b qi ⟨n + 1, hn⟩).val - 1) (Nat.lt_of_le_of_lt (Nat.sub_le _ _) (pt b qi ⟨n + 1, hn⟩).isLt) = St m c b qi ⟨n, by omega⟩ :=
  stateAt_congr m c (by show 16 * b.val + 8 * qi.val + (n + 1) - 1 = 16 * b.val + 8 * qi.val + n; omega) _ _

theorem entryMax_at (b : Fin 8) (qi : Fin 2) (j : Fin 8) (r : Fin 1024) :
    entryMax m c (pt b qi j) (ix2 r 0) = mSeq m c b qi r j.val := by
  obtain ⟨n, hn⟩ := j
  cases n with
  | zero => unfold entryMax; rw [if_pos (pt_mod8 b qi ⟨0, hn⟩), pay4_eq]; rfl
  | succ n =>
    unfold entryMax
    rw [if_neg (by rw [pt_mod8]; exact Nat.succ_ne_zero n), prev_eq m c b qi n hn]
    show (St m c b qi ⟨n, by omega⟩).mx (ix2 r 0) = (if hn' : n < 8 then (St m c b qi ⟨n, hn'⟩).mx (ix2 r 0) else ⊥)
    rw [dif_pos (by omega : n < 8)]
theorem entryNorm_at (b : Fin 8) (qi : Fin 2) (j : Fin 8) (r : Fin 1024) :
    entryNorm m c (pt b qi j) (ix2 r 0) = lSeq m c b qi r j.val := by
  obtain ⟨n, hn⟩ := j
  cases n with
  | zero => unfold entryNorm; rw [if_pos (pt_mod8 b qi ⟨0, hn⟩), pay5_eq]; rfl
  | succ n =>
    unfold entryNorm
    rw [if_neg (by rw [pt_mod8]; exact Nat.succ_ne_zero n), prev_eq m c b qi n hn]
    show (St m c b qi ⟨n, by omega⟩).nm (ix2 r 0) = (if hn' : n < 8 then (St m c b qi ⟨n, hn'⟩).nm (ix2 r 0) else 0)
    rw [dif_pos (by omega : n < 8)]
theorem entryAcc_at (b : Fin 8) (qi : Fin 2) (j : Fin 8) (r h : Fin 1024) :
    entryAcc m c (pt b qi j) (ix2 r h) = aSeq m c b qi r h j.val := by
  obtain ⟨n, hn⟩ := j
  cases n with
  | zero => unfold entryAcc; rw [if_pos (pt_mod8 b qi ⟨0, hn⟩), pay6_eq]; rfl
  | succ n =>
    unfold entryAcc
    rw [if_neg (by rw [pt_mod8]; exact Nat.succ_ne_zero n), prev_eq m c b qi n hn]
    show (St m c b qi ⟨n, by omega⟩).acc (ix2 r h) = (if hn' : n < 8 then (St m c b qi ⟨n, hn'⟩).acc (ix2 r h) else 0)
    rw [dif_pos (by omega : n < 8)]

/-- The fourth scratch holds the scaled masked query tile at every key tile. -/
theorem entryQ_at (b : Fin 8) (qi : Fin 2) (r h : Fin 1024) : ∀ (n : ℕ) (hn : n < 8),
    entryQ m c (pt b qi ⟨n, hn⟩) (ix2 r h) = Xc m c b (qrow qi r) h * (μc m c b (qrow qi r) * Cert.Attn.scale)
  | 0, hn => by
    unfold entryQ
    rw [if_pos (pt_mod8 b qi ⟨0, hn⟩), pay7_at, x0_at, x2_at, c32_eq_scale]
  | n + 1, hn => by
    unfold entryQ
    rw [if_neg (by rw [pt_mod8]; exact Nat.succ_ne_zero n), prev_eq m c b qi n hn, (state_step m c (pt b qi ⟨n, by omega⟩)).1]
    exact entryQ_at b qi r h n (by omega)

/-- A key tile's scores for the query row: inner products of the scaled masked query row with the masked key rows. -/
theorem tile_score (b : Fin 8) (qi : Fin 2) (j : Fin 8) (r : Fin 1024) (r' : Fin 256) :
    k0_pay10 (entryQ m c (pt b qi j)) (iblk m c 1 (pt b qi j)) (iblk m c 3 (pt b qi j)) (ix2 r r')
      = ∑ h : Fin 1024, (Xc m c b (qrow qi r) h * (μc m c b (qrow qi r) * Cert.Attn.scale)) * (Xc m c b (krow j r') h * μc m c b (krow j r')) := by
  rw [pay10_at]
  refine Finset.sum_congr rfl fun h _ => ?_
  rw [entryQ_at m c b qi r h j.val j.isLt, x1_at, x3_at]

/-! ## With finite inputs: the streaming recurrence, and the output block -/

section Finite

variable (X' : Fin 8 → Fin 2048 → Fin 1024 → ℝ) (μ' : Fin 8 → Fin 2048 → ℝ)
  (hX : ∀ b s h, Xc m c b s h = (X' b s h : EReal)) (hμ : ∀ b s, μc m c b s = (μ' b s : EReal))

include hX hμ in
/-- With finite inputs a key tile's scores are the specification's, real numbers. -/
theorem tile_score_coe (b : Fin 8) (qi : Fin 2) (j : Fin 8) (r : Fin 1024) (r' : Fin 256) :
    k0_pay10 (entryQ m c (pt b qi j)) (iblk m c 1 (pt b qi j)) (iblk m c 3 (pt b qi j)) (ix2 r r') = ((Cert.Finite.score' X' μ' b (qrow qi r) (finProdFinEquiv (j, r')) : ℝ) : EReal) := by
  rw [tile_score, Cert.Finite.kscore_coe (Xc m c) (μc m c) X' μ' hX hμ b (qrow qi r) (krow j r'), krow_eq]

include hX hμ in
/-- THE RECURRENCE: over key tile `j` the running maximum, normaliser and weighted sum of a query row make the streaming
    softmax's step on that tile's scores and key rows. -/
theorem hstep (b : Fin 8) (qi : Fin 2) (r h : Fin 1024) (j : Fin 8) :
    mSeq m c b qi r (j.val + 1) = max (mSeq m c b qi r j.val) (Finset.univ.sup fun r' : Fin 256 => ((Cert.Finite.score' X' μ' b (qrow qi r) (finProdFinEquiv (j, r')) : ℝ) : EReal)) ∧
    lSeq m c b qi r (j.val + 1) = Ideal.exp (mSeq m c b qi r j.val - mSeq m c b qi r (j.val + 1)) * lSeq m c b qi r j.val
        + ∑ r' : Fin 256, Ideal.exp (((Cert.Finite.score' X' μ' b (qrow qi r) (finProdFinEquiv (j, r')) : ℝ) : EReal) - mSeq m c b qi r (j.val + 1)) ∧
    aSeq m c b qi r h (j.val + 1) = Ideal.exp (mSeq m c b qi r j.val - mSeq m c b qi r (j.val + 1)) * aSeq m c b qi r h j.val
        + ∑ r' : Fin 256, Ideal.exp (((Cert.Finite.score' X' μ' b (qrow qi r) (finProdFinEquiv (j, r')) : ℝ) : EReal) - mSeq m c b qi r (j.val + 1)) * (X' b (finProdFinEquiv (j, r')) h : EReal) := by
  have hM : k0_pay11 (entryQ m c (pt b qi j)) (iblk m c 1 (pt b qi j)) (iblk m c 3 (pt b qi j)) (entryMax m c (pt b qi j)) (ix2 r 0)
      = mSeq m c b qi r (j.val + 1) := by
    symm
    show (if hn : j.val < 8 then (St m c b qi ⟨j.val, hn⟩).mx (ix2 r 0) else ⊥) = _
    rw [dif_pos j.isLt]
    show (stateAt m c (pt b qi j).val (pt b qi j).isLt).mx (ix2 r 0) = _
    rw [(state_step m c (pt b qi j)).2.1, pay2_eq]
  refine ⟨?_, ?_, ?_⟩
  · rw [← hM, pay11_at, entryMax_at]
    congr 1
    refine Finset.sup_congr rfl fun r' _ => ?_
    exact tile_score_coe m c X' μ' hX hμ b qi j r r'
  · show (if hn : j.val < 8 then (St m c b qi ⟨j.val, hn⟩).nm (ix2 r 0) else 0) = _
    rw [dif_pos j.isLt]
    show (stateAt m c (pt b qi j).val (pt b qi j).isLt).nm (ix2 r 0) = _
    rw [(state_step m c (pt b qi j)).2.2.1, pay14_at, pay12_at, hM, entryMax_at, entryNorm_at]
    congr 1
    refine Finset.sum_congr rfl fun r' _ => ?_
    rw [pay13_at, hM, tile_score_coe m c X' μ' hX hμ b qi j r r']
  · show (if hn : j.val < 8 then (St m c b qi ⟨j.val, hn⟩).acc (ix2 r h) else 0) = _
    rw [dif_pos j.isLt]
    show (stateAt m c (pt b qi j).val (pt b qi j).isLt).acc (ix2 r h) = _
    rw [(state_step m c (pt b qi j)).2.2.2, pay1_at, pay15_at, pay12_at, hM, entryMax_at, entryAcc_at]
    congr 1
    refine Finset.sum_congr rfl fun r' _ => ?_
    rw [pay13_at, hM, tile_score_coe m c X' μ' hX hμ b qi j r r', pay9_at, x1_at, hX, krow_eq]

include hX hμ in
/-- THE OUTPUT BLOCK: what the last key tile stores at row `r`, feature `h` is the specification at that query row. -/
theorem out_at (b : Fin 8) (qi : Fin 2) (r h : Fin 1024) :
    (St m c b qi 7).out (ix3 0 r h) = Cert.Attn.attn (Xc m c) (μc m c) b (qrow qi r) h := by
  show (stateAt m c (pt b qi 7).val (pt b qi 7).isLt).out (ix3 0 r h) = _
  rw [state_out m c (pt b qi 7) (pt_mod8 b qi 7), pay3_at]
  exact Cert.Finite.attn_eq_online (Xc m c) (μc m c) X' μ' hX hμ b (qrow qi r) h (mSeq m c b qi r) (lSeq m c b qi r) (aSeq m c b qi r h)
    ⟨rfl, rfl, rfl⟩ (hstep m c X' μ' hX hμ b qi r h)

/-- The result array the kernel ends with: the specification of the two argument arrays, index by index. -/
def G : Buf (Elt Ideal) ((cfg0.win 4).arr.view.loc (c.tc : Thread nD τ)) :=
  fun i : S8x2048x1024.Idx => Cert.Attn.attn (Xc m c) (μc m c) (i 0) (i 1) (i 2)

include hX hμ in
/-- The output block of a query tile, entry by entry, is the specification at the block's place in the result array. -/
theorem out_block (b : Fin 8) (qi : Fin 2) (y : S1x1024x1024.Idx) :
    (St m c b qi 7).out y = G m c (((cfg0.win 4).blk (pt b qi 7)).view.emb y) := by
  have hy : y = ix3 (0 : Fin 1) (y 1 : Fin 1024) (y 2 : Fin 1024) := by
    funext a
    match a with
    | ⟨0, _⟩ => exact Fin.ext (show (y 0).val = 0 from by have := (y 0).isLt; simp at this; omega)
    | ⟨1, _⟩ => rfl
    | ⟨2, _⟩ => rfl
  obtain ⟨e0, e1, e2⟩ := Cover.emb4_val (pt b qi 7) y
  rw [pt_div16] at e0
  rw [pt_tile] at e1
  have a0 : b = ((((cfg0.win 4).blk (pt b qi 7)).view.emb y) 0 : Fin 8) := Fin.ext e0.symm
  have a1 : qrow qi (y 1 : Fin 1024) = ((((cfg0.win 4).blk (pt b qi 7)).view.emb y) 1 : Fin 2048) := Fin.ext (by rw [e1]; rfl)
  have a2 : (y 2 : Fin 1024) = ((((cfg0.win 4).blk (pt b qi 7)).view.emb y) 2 : Fin 1024) := Fin.ext e2.symm
  refine (congrArg (St m c b qi 7).out hy).trans ((out_at m c X' μ' hX hμ b qi (y 1) (y 2)).trans ?_)
  exact congr (congr (congrArg (Cert.Attn.attn (Xc m c) (μc m c)) a0) a1) a2

include hX hμ in
/-- What a write-back writes is that block of the specification. -/
theorem flushed_eq (t : Fin cfg0.N) (hf : (cfg0.win 4).flush t = true) :
    (dats m 0 c).flushed 4 t = ((cfg0.win 4).blk t).view.read (Elt Ideal) (G m c) := by
  have h7 : t.val % 8 = 7 := (flush0_4 t).mp hf
  have hN : t.val < 128 := lt_of_lt_of_eq t.isLt (show cfg0.N = 128 from N_0)
  obtain ⟨b, qi, rfl⟩ : ∃ (b : Fin 8) (qi : Fin 2), t = pt b qi 7 :=
    ⟨⟨t.val / 16, by omega⟩, ⟨t.val / 8 % 2, by omega⟩, Fin.ext (by show t.val = 16 * (t.val / 16) + 8 * (t.val / 8 % 2) + 7; omega)⟩
  show (cfg0.win 4).cut (grid0.coords (pt b qi 7)) ((dats m 0 c).after 4 (pt b qi 7)) = _
  rw [after4]
  funext y
  rw [View.read_apply]
  exact out_block m c X' μ' hX hμ b qi y

include hX hμ in
/-- The result array after the run is the specification. -/
theorem final : (dats m 0 c).arrAt 4 cfg0.N = G m c :=
  Cover.final4_of m c (G m c) (flushed_eq m c X' μ' hX hμ)

end Finite

end Cert.KernelIdeal.AttnValue

end
-- ==== Proof.RefValue.lean ====
/-
  The reference program read at an index: its result at (b, q, h) is the attention value of Spec.lean.

  The program computes, in order: the scale 1 / sqrt 1024; the masked rows x b s h * μ b s; the scores, the inner
  products of pairs of masked rows of one sequence, times the scale; each query's greatest score (a maximum taken from
  -∞ over the keys, then once more against -∞); the exponentials of the scores less that maximum; their sum over the
  keys (from 0); the quotients; and the sum over the keys k of the quotient at (b, q, k) times x b k h.
  Each stage is read at an index built from literal coordinates, and the composed index functions of the stage readings
  are identified with those coordinates.
-/
import proofs.«108820_j20366734917932_2_alg».proof.Proof.Gen.ReferenceIdeal.Read
import proofs.«108820_j20366734917932_2_alg».proof.Proof.Spec
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- The first argument as a function of its three coordinates. -/
abbrev arr3 (X : (⟨S8x2048x1024, .f32⟩ : BufTy).Contents (Elt Ideal)) : Fin 8 → Fin 2048 → Fin 1024 → EReal :=
  fun b s h => X (ix3 b s h)

/-- The second argument as a function of its two coordinates. -/
abbrev arr2 (Mk : (⟨S8x2048, .f32⟩ : BufTy).Contents (Elt Ideal)) : Fin 8 → Fin 2048 → EReal :=
  fun b s => Mk (ix2 b s)

/-! ## The constants -/

/-- The word 0x3F800000 denotes one. -/
theorem ofBits_one : Ideal.ofBits .f32 0x3F800000#32 = 1 := by
  simp [Ideal.ofBits, Ideal.ieee, -EReal.coe_mul]; norm_num

/-- The word 0x44800000 denotes 1024. -/
theorem ofBits_1024 : Ideal.ofBits .f32 0x44800000#32 = ((1024 : ℝ) : EReal) := by
  simp [Ideal.ofBits, Ideal.ieee, -EReal.coe_mul]; norm_num

/-- The word 0xFF800000 denotes -∞, the least extended real. -/
theorem ofBits_negInf : Ideal.ofBits .f32 0xFF800000#32 = (⊥ : EReal) := by
  simp [Ideal.ofBits, Ideal.ieee]

/-- sqrt 1024 = 32, since 1024 = 32². -/
theorem sqrt_1024 : Real.sqrt 1024 = 32 := by
  rw [show (1024 : ℝ) = 32 ^ 2 by norm_num]
  exact Real.sqrt_sq (by norm_num)

/-- The scale the program computes, 1 / sqrt 1024, is 1/32. -/
theorem scale_eq :
    Ideal.div (Ideal.ofBits .f32 0x3F800000#32) (Ideal.sqrt (Ideal.ofBits .f32 0x44800000#32)) = Cert.Attn.scale := by
  rw [ofBits_one, ofBits_1024, Ideal.sqrt_coe, if_neg (by norm_num), sqrt_1024, Ideal.div_coe (by norm_num), one_mul]
  rfl

/-! ## A maximum folded from -∞ is the supremum -/

/-- Folding max from the least element over a finite set gives the set's supremum: both are the least upper bound of
    the values. -/
theorem fold_max_bot {ι : Type*} (s : Finset ι) (f : ι → EReal) : s.fold max ⊥ f = s.sup f := by
  refine le_antisymm ?_ ?_
  · exact (Finset.fold_max_le _).2 ⟨bot_le, fun x hx => Finset.le_sup hx⟩
  · exact Finset.sup_le fun x hx => (Finset.le_fold_max _).2 (Or.inr ⟨x, hx, le_rfl⟩)

/-! ## The stages at an index -/

variable (X : (⟨S8x2048x1024, .f32⟩ : BufTy).Contents (Elt Ideal)) (Mk : (⟨S8x2048, .f32⟩ : BufTy).Contents (Elt Ideal))

/-- The masked rows. -/
theorem v4_at (b : Fin 8) (s : Fin 2048) (h : Fin 1024) :
    Read.val_main_v4 (F := Ideal) X Mk (ix3 b s h) = Cert.Attn.masked (arr3 X) (arr2 Mk) b s h := by
  have e : Read.idx_main_v2 (Read.idx_main_v3 (ix3 b s h)) = ix2 b s :=
    funext fun a => Fin.ext (by match a with | ⟨0, _⟩ => rfl | ⟨1, _⟩ => rfl)
  rw [Read.val_main_v4_apply, Read.val_main_v3_apply, Read.val_main_v2_apply, e]
  rfl

/-- The scaled scores. -/
theorem v7_at (b : Fin 8) (q k : Fin 2048) :
    Read.val_main_v7 (F := Ideal) X Mk (ix3 b q k) = Cert.Attn.score (arr3 X) (arr2 Mk) b q k := by
  have el : ∀ h : Fin 1024, Read.lidx_main_v5 (ix3 b q k) h = ix3 b q h := fun h =>
    funext fun a => Fin.ext (by match a with | ⟨0, _⟩ => rfl | ⟨1, _⟩ => rfl | ⟨2, _⟩ => rfl)
  have er : ∀ h : Fin 1024, Read.ridx_main_v5 (ix3 b q k) h = ix3 b k h := fun h =>
    funext fun a => Fin.ext (by match a with | ⟨0, _⟩ => rfl | ⟨1, _⟩ => rfl | ⟨2, _⟩ => rfl)
  rw [Read.val_main_v7_apply, Read.val_main_v5_apply, Read.val_main_v6_apply, Read.val_main_v1_apply,
    Read.val_main_v0_apply, Read.val_main_cst_0_apply, Read.val_main_cst_apply]
  simp only [Ideal.mulf_def, Ideal.hostDivf_def, Ideal.hostUnary_sqrt_def, Ideal.ofBits_def, scale_eq, el, er, v4_at]
  rfl

/-- The index over (b, q) with the key k put back on the reduced axis is (b, q, k). -/
theorem lift_d2 (hr : S8x2048x2048.Reduces [2] S8x2048) (b : Fin 8) (q : Fin 2048) (k : Fin 2048) :
    hr.lift (ix2 b q) k = ix3 b q k := by
  funext c; apply Fin.ext
  match c with
  | ⟨0, _⟩ => rfl
  | ⟨1, _⟩ => rfl
  | ⟨2, _⟩ => rfl

/-- The maximum over the keys, taken from -∞, is the greatest score. -/
theorem v8_at (b : Fin 8) (q : Fin 2048) :
    Read.val_main_v8 (F := Ideal) X Mk (ix2 b q) = Cert.Attn.rowMax (arr3 X) (arr2 Mk) b q := by
  have hr : S8x2048x2048.Reduces [2] S8x2048 := by decide
  unfold Read.val_main_v8
  rw [Host.reduce_eq_fold_single FloatOps.maximumf _ _ reducesTo_S8x2048x2048_S8x2048_d2 hr h_S_]
  show Finset.fold max (Ideal.ofBits .f32 0xFF800000#32)
      (fun k : Fin 2048 => Read.val_main_v7 (F := Ideal) X Mk (hr.lift (ix2 b q) k)) Finset.univ = _
  rw [ofBits_negInf, fold_max_bot]
  unfold Cert.Attn.rowMax
  refine Finset.sup_congr rfl fun k _ => ?_
  rw [lift_d2 hr b q k, v7_at]

/-- The maximum of -∞ and the greatest score is the greatest score. -/
theorem v10_at (b : Fin 8) (q : Fin 2048) :
    Read.val_main_v10 (F := Ideal) X Mk (ix2 b q) = Cert.Attn.rowMax (arr3 X) (arr2 Mk) b q := by
  rw [Read.val_main_v10_apply, Read.val_main_v9_apply, Read.val_main_cst_2_apply, v8_at]
  simp only [Ideal.maximumf_def, Ideal.ofBits_def, ofBits_negInf]
  exact max_bot_left _

/-- The exponentials. -/
theorem v14_at (b : Fin 8) (q k : Fin 2048) :
    Read.val_main_v14 (F := Ideal) X Mk (ix3 b q k) = Cert.Attn.weight (arr3 X) (arr2 Mk) b q k := by
  have e : Read.idx_main_v11 (Read.idx_main_v12 (ix3 b q k)) = ix2 b q :=
    funext fun a => Fin.ext (by match a with | ⟨0, _⟩ => rfl | ⟨1, _⟩ => rfl)
  rw [Read.val_main_v14_apply, Read.val_main_v13_apply, Read.val_main_v12_apply, Read.val_main_v11_apply, e, v7_at, v10_at]
  rfl

/-- Their sum over the keys. -/
theorem v15_at (b : Fin 8) (q : Fin 2048) :
    Read.val_main_v15 (F := Ideal) X Mk (ix2 b q) = Cert.Attn.normaliser (arr3 X) (arr2 Mk) b q := by
  have e : ∀ k : Fin 2048, Read.idx_main_v15 (ix2 b q) k = ix3 b q k := fun k =>
    funext fun a => Fin.ext (by match a with | ⟨0, _⟩ => rfl | ⟨1, _⟩ => rfl | ⟨2, _⟩ => rfl)
  rw [Read.val_main_v15_apply, Read.val_main_cst_3_apply]
  simp only [Ideal.ofBits_def, Ideal.ofBits_zero_f32, zero_add, e, v14_at]
  rfl

/-- The quotients. -/
theorem v18_at (b : Fin 8) (q k : Fin 2048) :
    Read.val_main_v18 (F := Ideal) X Mk (ix3 b q k)
      = Ideal.div (Cert.Attn.weight (arr3 X) (arr2 Mk) b q k) (Cert.Attn.normaliser (arr3 X) (arr2 Mk) b q) := by
  have e : Read.idx_main_v16 (Read.idx_main_v17 (ix3 b q k)) = ix2 b q :=
    funext fun a => Fin.ext (by match a with | ⟨0, _⟩ => rfl | ⟨1, _⟩ => rfl)
  rw [Read.val_main_v18_apply, Read.val_main_v17_apply, Read.val_main_v16_apply, e, v14_at, v15_at]
  rfl

/-- The reference's result at (b, q, h) is the attention value there. -/
theorem ref_eq_attn (b : Fin 8) (q : Fin 2048) (h : Fin 1024) :
    Read.val_main_v19 (F := Ideal) X Mk (ix3 b q h)
      = Cert.Attn.attn (fun b s h => X (ix3 b s h)) (fun b s => Mk (ix2 b s)) b q h := by
  have el : ∀ k : Fin 2048, Read.lidx_main_v19 (ix3 b q h) k = ix3 b q k := fun k =>
    funext fun a => Fin.ext (by match a with | ⟨0, _⟩ => rfl | ⟨1, _⟩ => rfl | ⟨2, _⟩ => rfl)
  have er : ∀ k : Fin 2048, Read.ridx_main_v19 (ix3 b q h) k = ix3 b k h := fun k =>
    funext fun a => Fin.ext (by match a with | ⟨0, _⟩ => rfl | ⟨1, _⟩ => rfl | ⟨2, _⟩ => rfl)
  rw [Read.val_main_v19_apply]
  simp only [el, er, v18_at]
  rfl

end Cert.ReferenceIdeal.RefValue

end
-- ==== Proof.lean ====
/-
  A streaming ("flash") attention kernel against the dense softmax attention it computes.

  The arguments are a batch `x` of 8 sequences of 2048 rows of 1024 numbers and a row mask `μ`. The reference masks the
  rows, takes all pairwise inner products of the masked rows of a sequence, scales them by `1/√1024`, turns each row of
  scores into softmax weights, and returns the weighted sums of the UNMASKED rows. The kernel never forms the 2048 × 2048
  score matrix: for a tile of 1024 query rows it walks the 8 tiles of 256 key rows, keeping per query row a running
  maximum of the scores seen, the sum of the exponentials of the scores less that maximum, and per feature the sum of
  those exponentials times the key rows — rescaling the two sums whenever the maximum grows — and divides at the last key
  tile. It folds the scale `1/32 = 1/√1024` into the masked query rows once per query tile.

  Over the extended reals, with finite inputs, the two agree exactly: the scale moves across the inner product, the
  exponential turns the rescaling into a change of the subtracted maximum, and a common positive divisor moves across a
  finite sum. The modules:
  * `Spec` — the function both compute; `RefValue` — the reference's result read at an index is that function;
  * `LibSharedFrame`, `Kernel(Ideal)Launch` — the launch of a region two of whose windows read one array (each holds
    half of the array's share); `Kernel(Ideal)Runs/RunA/RunB/RunC/Frame` — the body's three cases (first, middle, last
    key tile), the state after each grid point, the invariant carrying the four scratch buffers, and the frame, at both
    instances;
  * `KernelIdealPieces/Step/Pay/Blocks/Cover` — what each case leaves as the body's arithmetic, one step told for all
    three cases, that arithmetic and the windows' blocks read at an index, and the output blocks covering the result;
  * `LibOnlineSoftmax`, `Finite` — the streaming softmax equals the dense one; finiteness from the precondition;
  * `KernelIdealValue` — the kernel's result array is the specification.
-/
import proofs.«108820_j20366734917932_2_alg».proof.Defs
import proofs.«108820_j20366734917932_2_alg».proof.Proof.Gen.Kernel
import proofs.«108820_j20366734917932_2_alg».proof.Proof.Gen.KernelIdeal
import proofs.«108820_j20366734917932_2_alg».proof.Proof.Gen.ReferenceIdeal
import proofs.«108820_j20366734917932_2_alg».proof.Proof.Gen.ReferenceIdeal.Run
import proofs.«108820_j20366734917932_2_alg».proof.Proof.Gen.ReferenceIdeal.Read
import proofs.«108820_j20366734917932_2_alg».proof.Proof.Gen.Pre_finite_inputs
import proofs.«108820_j20366734917932_2_alg».proof.Proof.KernelFrame
import proofs.«108820_j20366734917932_2_alg».proof.Proof.KernelIdealValue
import proofs.«108820_j20366734917932_2_alg».proof.Proof.RefValue
import proofs.«108820_j20366734917932_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end, faults nowhere, and leaves its arguments unchanged. -/
theorem frame_kernel : Cert.frame_Kernel := fun m ρ _ => Cert.Kernel.Body.frame m ρ

/-- So does the kernel read at the extended reals. -/
theorem frame_kernelIdeal : Cert.frame_KernelIdeal := fun m ρ _ => Cert.KernelIdeal.Body.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- With finite inputs both programs end with the specification of the two arguments: the kernel by the streaming
    recurrence over the key tiles, the reference operation by operation. -/
theorem algebraic : Cert.algebraic_KernelIdeal_ReferenceIdeal := by
  intro m ρ m' ρ' hpre hagree
  refine ⟨fun c => Cert.KernelIdeal.AttnValue.G m c, ?_, ?_⟩
  · refine (θ_run Cert.KernelIdeal.defs _ _).mono (fun r h c => ⟨(h c).1.trans ?_, (h c).2⟩) (Cert.KernelIdeal.Body.run_out m ρ)
    obtain ⟨hXf, hμf⟩ := Cert.Finite.finite_of_pre _ _ (hpre c)
    choose X0 hX0 using hXf
    choose μ0 hμ0 using hμf
    exact Cert.KernelIdeal.AttnValue.final m c (fun b s h => X0 (ix3 b s h)) (fun b s => μ0 (ix2 b s)) (fun b s h => hX0 _) (fun b s => hμ0 _)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v19_eq, (hagree c).1, (hagree c).2]
    funext i
    rw [eq_ix3 i]
    exact Cert.ReferenceIdeal.RefValue.ref_eq_attn _ _ (i 0) (i 1) (i 2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
